-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x32x512 : Shape := ⟨4, ![64, 32, 32, 512]⟩
abbrev S512x64 : Shape := ⟨2, ![512, 64]⟩
abbrev S_ : Shape := ⟨0, ![]⟩

class Facts : Prop where
  bcast_S_S64x32x32x512 : S_.BroadcastsInDim S64x32x32x512 (![] : Fin 0 → Fin S64x32x32x512.rank)
  reducesTo_S64x32x32x512_S_d0_1_2_3 : S64x32x32x512.ReducesTo [0, 1, 2, 3] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S64x32x32x512 .f32) (main_arg1 : FVec F S512x64 .f32) (main_arg2 : FVec F S512x64 .f32) : IVec S_ 1 :=
  let main_v0 : FVec F S64x32x32x512 .f32 := Host.absf main_arg0
  let main_cst : FVec F S_ .f32 := constant S_ .f32 0x7F800000#32
  let main_v1 : FVec F S64x32x32x512 .f32 := broadcastInDim S64x32x32x512 ![] bcast_S_S64x32x32x512 main_cst
  let main_v2 : IVec S64x32x32x512 1 := cmpf .olt main_v0 main_v1
  let main_c : IVec S_ 1 := constantI S_ 1 1#1
  let main_v3 : IVec S_ 1 := (fun x v => Host.reduce IntOp.andi x v reducesTo_S64x32x32x512_S_d0_1_2_3 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  main_v13
-- ==== Kernel.lean ====
abbrev S64x32x32x512 : Shape := ⟨4, ![64, 32, 32, 512]⟩
abbrev S512x64 : Shape := ⟨2, ![512, 64]⟩
abbrev S64x512 : Shape := ⟨2, ![64, 512]⟩
abbrev S64x64x512 : Shape := ⟨3, ![64, 64, 512]⟩
abbrev S4x32x32x512 : Shape := ⟨4, ![4, 32, 32, 512]⟩
abbrev S4x64x512 : Shape := ⟨3, ![4, 64, 512]⟩
abbrev S4x1024x512 : Shape := ⟨3, ![4, 1024, 512]⟩
abbrev S4096x512 : Shape := ⟨2, ![4096, 512]⟩
abbrev S4096x64 : Shape := ⟨2, ![4096, 64]⟩
abbrev S4x1024x64 : Shape := ⟨3, ![4, 1024, 64]⟩
abbrev S4x1024 : Shape := ⟨2, ![4, 1024]⟩
abbrev S4x1024x1 : Shape := ⟨3, ![4, 1024, 1]⟩
abbrev S4x64 : Shape := ⟨2, ![4, 64]⟩
abbrev S4x64x1 : Shape := ⟨3, ![4, 64, 1]⟩
abbrev S1x64x512 : Shape := ⟨3, ![1, 64, 512]⟩
abbrev S4x1 : Shape := ⟨2, ![4, 1]⟩
abbrev S4x1x1 : Shape := ⟨3, ![4, 1, 1]⟩
abbrev S64x512x64 : Shape := ⟨3, ![64, 512, 64]⟩
abbrev S64x32768 : Shape := ⟨2, ![64, 32768]⟩

abbrev nBuf : Space → Nat
  | .hbm => 7
  | .vmem => 6
  | .smem => 0
  | _ => 0

abbrev bufTy : (tb : Table) → Fin (tcTables nBuf tb) → BufTy
  | .hbm, ⟨0, _⟩ => ⟨S64x32x32x512, .f32⟩
  | .hbm, ⟨1, _⟩ => ⟨S512x64, .f32⟩
  | .hbm, ⟨2, _⟩ => ⟨S512x64, .f32⟩
  | .hbm, ⟨3, _⟩ => ⟨S64x512, .f32⟩
  | .hbm, ⟨4, _⟩ => ⟨S64x64x512, .f32⟩
  | .hbm, ⟨5, _⟩ => ⟨S64x512x64, .f32⟩
  | .hbm, ⟨6, _⟩ => ⟨S64x32768, .f32⟩
  | .local _ .vmem, ⟨0, _⟩ => ⟨S4x32x32x512, .f32⟩
  | .local _ .vmem, ⟨1, _⟩ => ⟨S4x32x32x512, .f32⟩
  | .local _ .vmem, ⟨2, _⟩ => ⟨S512x64, .f32⟩
  | .local _ .vmem, ⟨3, _⟩ => ⟨S64x512, .f32⟩
  | .local _ .vmem, ⟨4, _⟩ => ⟨S4x64x512, .f32⟩
  | .local _ .vmem, ⟨5, _⟩ => ⟨S4x64x512, .f32⟩
  | _, _ => ⟨S64x32x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x32x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S512x64_S64x512_1_0 : S512x64.Transposes [1, 0] S64x512
  inb_S4x32x32x512_S4x32x32x512_0_0_0_0 : ∀ a, (![0, 0, 0, 0] : Fin 4 → Nat) a + S4x32x32x512.size a ≤ S4x32x32x512.size a
  h_S4x32x32x512 : 0 < S4x32x32x512.numel
  shapeCasts_S4x32x32x512_S4x1024x512 : S4x32x32x512.ShapeCasts S4x1024x512
  shapeCasts_S4x1024x512_S4096x512 : S4x1024x512.ShapeCasts S4096x512
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  shapeCasts_S4096x64_S4x1024x64 : S4096x64.ShapeCasts S4x1024x64
  reduces_S4x1024x64_S4x1024 : S4x1024x64.Reduces [2] S4x1024
  shapeCasts_S4x1024_S4x1024x1 : S4x1024.ShapeCasts S4x1024x1
  broadcasts_S4x1024x1_S4x1024x64 : S4x1024x1.Broadcasts S4x1024x64
  shapeCasts_S4096x512_S4x1024x512 : S4096x512.ShapeCasts S4x1024x512
  reduces_S4x1024x64_S4x64 : S4x1024x64.Reduces [1] S4x64
  inb_S64x512_S64x512_0_0 : ∀ a, (![0, 0] : Fin 2 → Nat) a + S64x512.size a ≤ S64x512.size a
  h_S64x512 : 0 < S64x512.numel
  shapeCasts_S64x512_S64x512 : S64x512.ShapeCasts S64x512
  shapeCasts_S4x64_S4x64x1 : S4x64.ShapeCasts S4x64x1
  shapeCasts_S64x512_S1x64x512 : S64x512.ShapeCasts S1x64x512
  broadcasts_S4x64x1_S4x64x512 : S4x64x1.Broadcasts S4x64x512
  broadcasts_S1x64x512_S4x64x512 : S1x64x512.Broadcasts S4x64x512
  reduces_S4x64x512_S4x64 : S4x64x512.Reduces [2] S4x64
  reduces_S4x64x1_S4x1 : S4x64x1.Reduces [1] S4x1
  shapeCasts_S4x1_S4x1x1 : S4x1.ShapeCasts S4x1x1
  broadcasts_S4x1x1_S4x64x512 : S4x1x1.Broadcasts S4x64x512
  inb_S4x64x512_S4x64x512_0_0_0 : ∀ a, (![0, 0, 0] : Fin 3 → Nat) a + S4x64x512.size a ≤ S4x64x512.size a
  h_S4x64x512 : 0 < S4x64x512.numel
  transposes_S64x64x512_S64x512x64_0_2_1 : S64x64x512.Transposes [0, 2, 1] S64x512x64
  shapeCasts_S64x512x64_S64x32768 : S64x512x64.ShapeCasts S64x32768
  dot_S4096x512_S512x64_S4096x64_1_0_0_1_n_n_wf : DotDims.WF S4096x512 S512x64 S4096x64 [1] [0] [0] [1] [] []
  dot_S4x1024x64_S4x1024x512_S4x64x512_1_1_2_2_0_0_wf : DotDims.WF S4x1024x64 S4x1024x512 S4x64x512 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x32x32x512.size a ≤ S64x32x32x512.size a
  hwx0_0 : ∀ i : grid0.Coords, EltTy.bits .f32 = 32 ∨ (Rect.block (s := S64x32x32x512) S4x32x32x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x64x512.size a ≤ S64x64x512.size a
  hwx0_3 : ∀ i : grid0.Coords, EltTy.bits .f32 = 32 ∨ (Rect.block (s := S64x64x512) S4x64x512.size (cc0_transform_3 i) (hinb0_3 i)).WholeWords (EltTy.packing .f32)

variable [Facts₀]

def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def dot_S4x1024x64_S4x1024x512_S4x64x512_1_1_2_2_0_0 : DotDims S4x1024x64 S4x1024x512 S4x64x512 where
  lhsContracting := [1]
  rhsContracting := [1]
  lhsNonContracting := [2]
  rhsNonContracting := [2]
  lhsBatch := [0]
  rhsBatch := [0]
  wf := dot_S4x1024x64_S4x1024x512_S4x64x512_1_1_2_2_0_0_wf

abbrev win0_0 : Pipeline.Window sig grid0 :=
  Pipeline.Window.ofSpec (Memref.whole main_arg0) S4x32x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4x64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x32x32x512 : Shape := ⟨4, ![64, 32, 32, 512]⟩
abbrev S512x64 : Shape := ⟨2, ![512, 64]⟩
abbrev S64x32x32x64 : Shape := ⟨4, ![64, 32, 32, 64]⟩
abbrev S_ : Shape := ⟨0, ![]⟩
abbrev S64x32x32 : Shape := ⟨3, ![64, 32, 32]⟩
abbrev S64x32x32x1 : Shape := ⟨4, ![64, 32, 32, 1]⟩
abbrev S64x1024x64 : Shape := ⟨3, ![64, 1024, 64]⟩
abbrev S64x1024x512 : Shape := ⟨3, ![64, 1024, 512]⟩
abbrev S64x64x512 : Shape := ⟨3, ![64, 64, 512]⟩
abbrev S64x64 : Shape := ⟨2, ![64, 64]⟩
abbrev S64x64x1 : Shape := ⟨3, ![64, 64, 1]⟩
abbrev S64x512 : Shape := ⟨2, ![64, 512]⟩
abbrev S1x64x512 : Shape := ⟨3, ![1, 64, 512]⟩
abbrev S64x512x64 : Shape := ⟨3, ![64, 512, 64]⟩
abbrev S64x32768 : Shape := ⟨2, ![64, 32768]⟩
abbrev S64 : Shape := ⟨1, ![64]⟩
abbrev S64x1 : Shape := ⟨2, ![64, 1]⟩

abbrev nBuf : Space → Nat
  | .hbm => 52
  | .vmem => 0
  | .smem => 0
  | _ => 0

abbrev bufTy : (tb : Table) → Fin (tcTables nBuf tb) → BufTy
  | .hbm, ⟨0, _⟩ => ⟨S64x32x32x512, .f32⟩
  | .hbm, ⟨1, _⟩ => ⟨S512x64, .f32⟩
  | .hbm, ⟨2, _⟩ => ⟨S512x64, .f32⟩
  | .hbm, ⟨3, _⟩ => ⟨S64x32x32x64, .f32⟩
  | .hbm, ⟨4, _⟩ => ⟨S_, .f32⟩
  | .hbm, ⟨5, _⟩ => ⟨S64x32x32, .f32⟩
  | .hbm, ⟨6, _⟩ => ⟨S_, .f32⟩
  | .hbm, ⟨7, _⟩ => ⟨S64x32x32, .f32⟩
  | .hbm, ⟨8, _⟩ => ⟨S64x32x32, .f32⟩
  | .hbm, ⟨9, _⟩ => ⟨S64x32x32x1, .f32⟩
  | .hbm, ⟨10, _⟩ => ⟨S64x32x32x64, .f32⟩
  | .hbm, ⟨11, _⟩ => ⟨S64x32x32x64, .f32⟩
  | .hbm, ⟨12, _⟩ => ⟨S64x32x32x64, .f32⟩
  | .hbm, ⟨13, _⟩ => ⟨S_, .f32⟩
  | .hbm, ⟨14, _⟩ => ⟨S64x32x32, .f32⟩
  | .hbm, ⟨15, _⟩ => ⟨S64x32x32x1, .f32⟩
  | .hbm, ⟨16, _⟩ => ⟨S64x32x32x64, .f32⟩
  | .hbm, ⟨17, _⟩ => ⟨S64x32x32x64, .f32⟩
  | .hbm, ⟨18, _⟩ => ⟨S64x1024x64, .f32⟩
  | .hbm, ⟨19, _⟩ => ⟨S64x1024x512, .f32⟩
  | .hbm, ⟨20, _⟩ => ⟨S64x64x512, .f32⟩
  | .hbm, ⟨21, _⟩ => ⟨S_, .f32⟩
  | .hbm, ⟨22, _⟩ => ⟨S64x64, .f32⟩
  | .hbm, ⟨23, _⟩ => ⟨S64x64x1, .f32⟩
  | .hbm, ⟨24, _⟩ => ⟨S64x512, .f32⟩
  | .hbm, ⟨25, _⟩ => ⟨S1x64x512, .f32⟩
  | .hbm, ⟨26, _⟩ => ⟨S64x64x512, .f32⟩
  | .hbm, ⟨27, _⟩ => ⟨S64x64x512, .f32⟩
  | .hbm, ⟨28, _⟩ => ⟨S64x64x512, .f32⟩
  | .hbm, ⟨29, _⟩ => ⟨S64x64x512, .f32⟩
  | .hbm, ⟨30, _⟩ => ⟨S64x64x512, .f32⟩
  | .hbm, ⟨31, _⟩ => ⟨S_, .f32⟩
  | .hbm, ⟨32, _⟩ => ⟨S64x64, .f32⟩
  | .hbm, ⟨33, _⟩ => ⟨S64x64x1, .f32⟩
  | .hbm, ⟨34, _⟩ => ⟨S_, .f32⟩
  | .hbm, ⟨35, _⟩ => ⟨S64x64x1, .f32⟩
  | .hbm, ⟨36, _⟩ => ⟨S64x64x1, .f32⟩
  | .hbm, ⟨37, _⟩ => ⟨S64x64x1, .f32⟩
  | .hbm, ⟨38, _⟩ => ⟨S64x64x512, .f32⟩
  | .hbm, ⟨39, _⟩ => ⟨S64x64x512, .f32⟩
  | .hbm, ⟨40, _⟩ => ⟨S64x512x64, .f32⟩
  | .hbm, ⟨41, _⟩ => ⟨S64x32768, .f32⟩
  | .hbm, ⟨42, _⟩ => ⟨S64x32768, .f32⟩
  | .hbm, ⟨43, _⟩ => ⟨S_, .f32⟩
  | .hbm, ⟨44, _⟩ => ⟨S64, .f32⟩
  | .hbm, ⟨45, _⟩ => ⟨S64x1, .f32⟩
  | .hbm, ⟨46, _⟩ => ⟨S_, .f32⟩
  | .hbm, ⟨47, _⟩ => ⟨S64x1, .f32⟩
  | .hbm, ⟨48, _⟩ => ⟨S64x1, .f32⟩
  | .hbm, ⟨49, _⟩ => ⟨S64x1, .f32⟩
  | .hbm, ⟨50, _⟩ => ⟨S64x32768, .f32⟩
  | .hbm, ⟨51, _⟩ => ⟨S64x32768, .f32⟩
  | _, _ => ⟨S64x32x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]

class Facts₀ : Prop where
  reducesTo_S64x32x32x64_S64x32x32_d3 : S64x32x32x64.ReducesTo [3] S64x32x32
  h_S_ : 0 < S_.numel
  bcast_S_S64x32x32 : S_.BroadcastsInDim S64x32x32 (![] : Fin 0 → Fin S64x32x32.rank)
  bcast_S64x32x32_S64x32x32x1_0_1_2 : S64x32x32.BroadcastsInDim S64x32x32x1 (![0, 1, 2] : Fin 3 → Fin S64x32x32x1.rank)
  bcast_S64x32x32x1_S64x32x32x64_0_1_2_3 : S64x32x32x1.BroadcastsInDim S64x32x32x64 (![0, 1, 2, 3] : Fin 4 → Fin S64x32x32x64.rank)
  shapeCasts_S64x32x32x64_S64x1024x64 : S64x32x32x64.ShapeCasts S64x1024x64
  shapeCasts_S64x32x32x512_S64x1024x512 : S64x32x32x512.ShapeCasts S64x1024x512
  reducesTo_S64x1024x64_S64x64_d1 : S64x1024x64.ReducesTo [1] S64x64
  bcast_S64x64_S64x64x1_0_1 : S64x64.BroadcastsInDim S64x64x1 (![0, 1] : Fin 2 → Fin S64x64x1.rank)
  transposes_S512x64_S64x512_1_0 : S512x64.Transposes [1, 0] S64x512
  bcast_S64x512_S1x64x512_1_2 : S64x512.BroadcastsInDim S1x64x512 (![1, 2] : Fin 2 → Fin S1x64x512.rank)
  bcast_S64x64x1_S64x64x512_0_1_2 : S64x64x1.BroadcastsInDim S64x64x512 (![0, 1, 2] : Fin 3 → Fin S64x64x512.rank)
  bcast_S1x64x512_S64x64x512_0_1_2 : S1x64x512.BroadcastsInDim S64x64x512 (![0, 1, 2] : Fin 3 → Fin S64x64x512.rank)
  reducesTo_S64x64x512_S64x64_d2 : S64x64x512.ReducesTo [2] S64x64
  bcast_S_S64x64x1 : S_.BroadcastsInDim S64x64x1 (![] : Fin 0 → Fin S64x64x1.rank)
  transposes_S64x64x512_S64x512x64_0_2_1 : S64x64x512.Transposes [0, 2, 1] S64x512x64
  shapeCasts_S64x512x64_S64x32768 : S64x512x64.ShapeCasts S64x32768
  reducesTo_S64x32768_S64_d1 : S64x32768.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x32768_0_1 : S64x1.BroadcastsInDim S64x32768 (![0, 1] : Fin 2 → Fin S64x32768.rank)
  dot_S64x32x32x512_S512x64_S64x32x32x64_3_0_012_1_n_n_wf : DotDims.WF S64x32x32x512 S512x64 S64x32x32x64 [3] [0] [0, 1, 2] [1] [] []
  dot_S64x1024x64_S64x1024x512_S64x64x512_1_1_2_2_0_0_wf : DotDims.WF S64x1024x64 S64x1024x512 S64x64x512 [1] [1] [2] [2] [0] [0]

variable [Facts₀]

def dot_S64x32x32x512_S512x64_S64x32x32x64_3_0_012_1_n_n : DotDims S64x32x32x512 S512x64 S64x32x32x64 where
  lhsContracting := [3]
  rhsContracting := [0]
  lhsNonContracting := [0, 1, 2]
  rhsNonContracting := [1]
  lhsBatch := []
  rhsBatch := []
  wf := dot_S64x32x32x512_S512x64_S64x32x32x64_3_0_012_1_n_n_wf
def dot_S64x1024x64_S64x1024x512_S64x64x512_1_1_2_2_0_0 : DotDims S64x1024x64 S64x1024x512 S64x64x512 where
  lhsContracting := [1]
  rhsContracting := [1]
  lhsNonContracting := [2]
  rhsNonContracting := [2]
  lhsBatch := [0]
  rhsBatch := [0]
  wf := dot_S64x1024x64_S64x1024x512_S64x64x512_1_1_2_2_0_0_wf

class Facts : Prop extends Facts₀ where

variable [Facts]
-- ==== Proof.KernelStages.lean ====
/-
  The kernel body's arithmetic cut into stages, each a function of the stage before it.

  The body loads a block of four images `v0 : 4 × 32 × 32 × 512`, the weights `v4 : 512 × 64` and the transposed
  centres `v23 : 64 × 512`, and computes, in order: the scores of the block's 4096 pixels against the 64 clusters (one
  matrix product over the flattened pixels), each pixel's largest score, the shifted exponentials, the soft
  assignments (a quotient by the row sums), the aggregated residuals (a matrix product batched over the four images
  plus the column sums times the centres), the row normalisation, the rows' sums of squares, and the normalisation
  of each image's whole descriptor. The three payloads of the body are these stages composed, by unfolding.
-/
import proofs.«115963_j75557064672007_2_alg».proof.Proof.Gen.KernelIdeal.Skeleton
import Idealize.ShloMosaic.PureOps.Ideal

noncomputable section

namespace Cert.NetVlad.Stages

open Idealize.ShloMosaic Cert.KernelIdeal Cert.KernelIdeal.Facts₀

/-- The block's pixels flattened to 4096 rows of 512 channels. -/
def kPixels (v0 : Vec Ideal S4x32x32x512 .f32) : FVec Ideal S4096x512 .bf16 :=
  truncf .bf16 (shapeCast S4096x512 (shapeCast S4x1024x512 v0 shapeCasts_S4x32x32x512_S4x1024x512) shapeCasts_S4x1024x512_S4096x512)
    bitsLt_bf16_f32

/-- The scores: pixels times weights, regrouped image by image. -/
def kScores (v0 : Vec Ideal S4x32x32x512 .f32) (v4 : Vec Ideal S512x64 .f32) : FVec Ideal S4x1024x64 .f32 :=
  shapeCast S4x1024x64
    (matmul dot_S4096x512_S512x64_S4096x64_1_0_0_1_n_n none (kPixels v0) (truncf .bf16 v4 bitsLt_bf16_f32)
      (constant S4096x64 .f32 0x00000000#32))
    shapeCasts_S4096x64_S4x1024x64

/-- Each pixel's largest score. -/
def kRowMax (v7 : FVec Ideal S4x1024x64 .f32) : FVec Ideal S4x1024 .f32 :=
  maximumf (broadcast S4x1024 (Scalar.ofBits .f32 0xFF800000#32))
    (multiReduction .maximumf [2] S4x1024 v7 0xFF800000#32 reduces_S4x1024x64_S4x1024 (.inl rfl) rfl)

/-- The exponentials of the scores shifted by the pixel's largest. -/
def kExp (v7 : FVec Ideal S4x1024x64 .f32) : FVec Ideal S4x1024x64 .f32 :=
  exp (subf v7 (broadcastTo S4x1024x64 (shapeCast S4x1024x1 (kRowMax v7) shapeCasts_S4x1024_S4x1024x1)
    broadcasts_S4x1024x1_S4x1024x64))

/-- The soft assignments. -/
def kAssign (v7 : FVec Ideal S4x1024x64 .f32) : FVec Ideal S4x1024x64 .f32 :=
  divf (kExp v7) (broadcastTo S4x1024x64
    (shapeCast S4x1024x1 (multiReduction .add [2] S4x1024 (kExp v7) 0x00000000#32 reduces_S4x1024x64_S4x1024 (.inl rfl) rfl)
      shapeCasts_S4x1024_S4x1024x1) broadcasts_S4x1024x1_S4x1024x64)

/-- The aggregated residuals. -/
def kVlad (v0 : Vec Ideal S4x32x32x512 .f32) (v18 : FVec Ideal S4x1024x64 .f32) (v23 : Vec Ideal S64x512 .f32) :
    FVec Ideal S4x64x512 .f32 :=
  addf
    (matmul dot_S4x1024x64_S4x1024x512_S4x64x512_1_1_2_2_0_0 none (truncf .bf16 v18 bitsLt_bf16_f32)
      (shapeCast S4x1024x512 (kPixels v0) shapeCasts_S4096x512_S4x1024x512) (constant S4x64x512 .f32 0x00000000#32))
    (mulf
      (broadcastTo S4x64x512
        (shapeCast S4x64x1 (multiReduction .add [1] S4x64 v18 0x00000000#32 reduces_S4x1024x64_S4x64 (.inl rfl) rfl)
          shapeCasts_S4x64_S4x64x1) broadcasts_S4x64x1_S4x64x512)
      (broadcastTo S4x64x512
        (shapeCast S1x64x512 (shapeCast S64x512 v23 shapeCasts_S64x512_S64x512) shapeCasts_S64x512_S1x64x512)
        broadcasts_S1x64x512_S4x64x512))

/-- The rows' sums of squares, kept as a trailing unit axis. -/
def kRowSS (v : FVec Ideal S4x64x512 .f32) : FVec Ideal S4x64x1 .f32 :=
  shapeCast S4x64x1 (multiReduction .add [2] S4x64 (mulf v v) 0x00000000#32 reduces_S4x64x512_S4x64 (.inl rfl) rfl)
    shapeCasts_S4x64_S4x64x1

/-- The row normalisation. -/
def kIntra (v30 : FVec Ideal S4x64x512 .f32) : FVec Ideal S4x64x512 .f32 :=
  mulf v30 (broadcastTo S4x64x512
    (rsqrt (addf (kRowSS v30) (broadcast S4x64x1 (Scalar.ofBits .f32 0x2B8CBCCC#32)))) broadcasts_S4x64x1_S4x64x512)

/-- The normalisation of each image's whole descriptor, from the row-normalised one and its rows' sums of squares. -/
def kOut (v38 : FVec Ideal S4x64x512 .f32) (v41 : FVec Ideal S4x64x1 .f32) : FVec Ideal S4x64x512 .f32 :=
  mulf v38 (broadcastTo S4x64x512
    (rsqrt (addf
      (shapeCast S4x1x1 (multiReduction .add [1] S4x1 v41 0x00000000#32 reduces_S4x64x1_S4x1 (.inl rfl) rfl) shapeCasts_S4x1_S4x1x1)
      (broadcast S4x1x1 (Scalar.ofBits .f32 0x2B8CBCCC#32)))) broadcasts_S4x1x1_S4x64x512)

/-- The body's three payloads are the stages composed. -/
theorem pay2_eq (v0 : Vec Ideal S4x32x32x512 .f32) (v4 : Vec Ideal S512x64 .f32) (v23 : Vec Ideal S64x512 .f32) :
    Gen.k0_pay2 (F := Ideal) v0 v4 v23 = kIntra (kVlad v0 (kAssign (kScores v0 v4)) v23) := rfl

theorem pay3_eq (v0 : Vec Ideal S4x32x32x512 .f32) (v4 : Vec Ideal S512x64 .f32) (v23 : Vec Ideal S64x512 .f32) :
    Gen.k0_pay3 (F := Ideal) v0 v4 v23 = kRowSS (Gen.k0_pay2 (F := Ideal) v0 v4 v23) := rfl

theorem pay1_eq (v38 : FVec Ideal S4x64x512 .f32) (v41 : FVec Ideal S4x64x1 .f32) :
    Gen.k0_pay1 (F := Ideal) v38 v41 = kOut v38 v41 := rfl

end Cert.NetVlad.Stages

end
-- ==== Proof.KernelProducts.lean ====
/-
  The body's two matrix products read at an index, on the extended reals.

  The block's pixels are flattened to 4096 rows (row `1024·bb + n` is pixel `n` of image `bb`, which sits at row
  `n / 32`, column `n % 32` of the image). The scores are the product of the flattened pixels with the weights into a
  zero accumulator: at pixel `n` of image `bb` and cluster `k`, the sum over the 512 channels of pixel times weight. The
  aggregate is a product batched over the four images, contracting the pixels, into a zero accumulator: at image
  `bb`, cluster `k`, channel `d`, the sum over the 1024 pixels of the left operand at `(bb, n, k)` times the pixel's
  channel `d`. A change of float format is the identity on the extended reals.
-/
import proofs.«115963_j75557064672007_2_alg».proof.Proof.KernelStages
import Idealize.ShloMosaic.Lib.Pipeline.Value
import Idealize.ShloMosaic.Lib.ValueIdx
import Idealize.ShloMosaic.PureOps.Ideal.Laws

noncomputable section

namespace Cert.NetVlad.Products

open Idealize.ShloMosaic Idealize.ShloMosaic.ValueIdx Cert.KernelIdeal Cert.KernelIdeal.Facts₀ Cert.NetVlad.Stages
open scoped BigOperators

/-- Pixel `n` of image `bb` as a row of the flattened block. -/
abbrev rowOf (bb : Fin 4) (n : Fin 1024) : Fin 4096 := ⟨bb.val * 1024 + n.val, by have := bb.isLt; have := n.isLt; omega⟩
/-- Pixel `n`'s row and column in its image. -/
abbrev pixRow (n : Fin 1024) : Fin 32 := ⟨n.val / 32, by have := n.isLt; omega⟩
abbrev pixCol (n : Fin 1024) : Fin 32 := ⟨n.val % 32, Nat.mod_lt _ (by decide)⟩

/-- The flattened block at row `1024·bb + n`, channel `d`, is the block at image `bb`, pixel `(n / 32, n % 32)`. -/
theorem kPixels_apply (v0 : Vec Ideal S4x32x32x512 .f32) (bb : Fin 4) (n : Fin 1024) (d : Fin 512) :
    kPixels v0 (ix2 (rowOf bb n) d) = v0 (ix4 bb (pixRow n) (pixCol n) d) := by
  unfold kPixels
  show shapeCast S4096x512 (shapeCast S4x1024x512 v0 shapeCasts_S4x32x32x512_S4x1024x512) shapeCasts_S4x1024x512_S4096x512
    (ix2 (rowOf bb n) d) = _
  refine (shapeCast_apply _ _ (ix2 (rowOf bb n) d) (ix3 bb n d) ?_).trans
    (shapeCast_apply v0 _ (ix3 bb n d) (ix4 bb (pixRow n) (pixCol n) d) ?_)
  · rw [Shape.rowMajor_val_three, Shape.rowMajor_val_two]
    rfl
  · rw [Shape.rowMajor_val_four, Shape.rowMajor_val_three]
    have hn := n.isLt
    show ((bb.val * 32 + n.val / 32) * 32 + n.val % 32) * 512 + d.val = (bb.val * 1024 + n.val) * 512 + d.val
    omega

/-- The flattened block regrouped image by image reads the same entry. -/
theorem kPixels_regrouped_apply (v0 : Vec Ideal S4x32x32x512 .f32) (bb : Fin 4) (n : Fin 1024) (d : Fin 512) :
    shapeCast S4x1024x512 (kPixels v0) shapeCasts_S4096x512_S4x1024x512 (ix3 bb n d) = v0 (ix4 bb (pixRow n) (pixCol n) d) :=
  (shapeCast_apply _ _ (ix3 bb n d) (ix2 (rowOf bb n) d) (by
    rw [Shape.rowMajor_val_three, Shape.rowMajor_val_two]; rfl)).trans (kPixels_apply v0 bb n d)

/-! ### The contractions' index maps, coordinate by coordinate -/

theorem scores_lhs_0 (j : S4096x64.Idx) (q : dot_S4096x512_S512x64_S4096x64_1_0_0_1_n_n.contr.Idx) :
    (dot_S4096x512_S512x64_S4096x64_1_0_0_1_n_n.lhsIdx j q 0).val = (j 0).val := by
  unfold DotDims.lhsIdx
  rw [dif_neg (show ¬(0 : Fin S4096x512.rank) ∈ dot_S4096x512_S512x64_S4096x64_1_0_0_1_n_n.lhsBatch by decide),
    dif_pos (show (0 : Fin S4096x512.rank) ∈ dot_S4096x512_S512x64_S4096x64_1_0_0_1_n_n.lhsNonContracting by decide)]
  rfl
theorem scores_lhs_1 (j : S4096x64.Idx) (q : dot_S4096x512_S512x64_S4096x64_1_0_0_1_n_n.contr.Idx) :
    (dot_S4096x512_S512x64_S4096x64_1_0_0_1_n_n.lhsIdx j q 1).val = (q ⟨0, by decide⟩).val :=
  dot_S4096x512_S512x64_S4096x64_1_0_0_1_n_n.lhsIdx_val_of_single rfl j q
theorem scores_rhs_0 (j : S4096x64.Idx) (q : dot_S4096x512_S512x64_S4096x64_1_0_0_1_n_n.contr.Idx) :
    (dot_S4096x512_S512x64_S4096x64_1_0_0_1_n_n.rhsIdx j q 0).val = (q ⟨0, by decide⟩).val :=
  dot_S4096x512_S512x64_S4096x64_1_0_0_1_n_n.rhsIdx_val_of_single rfl j q
theorem scores_rhs_1 (j : S4096x64.Idx) (q : dot_S4096x512_S512x64_S4096x64_1_0_0_1_n_n.contr.Idx) :
    (dot_S4096x512_S512x64_S4096x64_1_0_0_1_n_n.rhsIdx j q 1).val = (j 1).val := by
  unfold DotDims.rhsIdx
  rw [dif_neg (show ¬(1 : Fin S512x64.rank) ∈ dot_S4096x512_S512x64_S4096x64_1_0_0_1_n_n.rhsBatch by decide),
    dif_pos (show (1 : Fin S512x64.rank) ∈ dot_S4096x512_S512x64_S4096x64_1_0_0_1_n_n.rhsNonContracting by decide)]
  rfl
theorem agg_lhs_0 (j : S4x64x512.Idx) (q : dot_S4x1024x64_S4x1024x512_S4x64x512_1_1_2_2_0_0.contr.Idx) :
    (dot_S4x1024x64_S4x1024x512_S4x64x512_1_1_2_2_0_0.lhsIdx j q 0).val = (j 0).val := by
  unfold DotDims.lhsIdx
  rw [dif_pos (show (0 : Fin S4x1024x64.rank) ∈ dot_S4x1024x64_S4x1024x512_S4x64x512_1_1_2_2_0_0.lhsBatch by decide)]
  rfl
theorem agg_lhs_1 (j : S4x64x512.Idx) (q : dot_S4x1024x64_S4x1024x512_S4x64x512_1_1_2_2_0_0.contr.Idx) :
    (dot_S4x1024x64_S4x1024x512_S4x64x512_1_1_2_2_0_0.lhsIdx j q 1).val = (q ⟨0, by decide⟩).val :=
  dot_S4x1024x64_S4x1024x512_S4x64x512_1_1_2_2_0_0.lhsIdx_val_of_single rfl j q
theorem agg_lhs_2 (j : S4x64x512.Idx) (q : dot_S4x1024x64_S4x1024x512_S4x64x512_1_1_2_2_0_0.contr.Idx) :
    (dot_S4x1024x64_S4x1024x512_S4x64x512_1_1_2_2_0_0.lhsIdx j q 2).val = (j 1).val := by
  unfold DotDims.lhsIdx
  rw [dif_neg (show ¬(2 : Fin S4x1024x64.rank) ∈ dot_S4x1024x64_S4x1024x512_S4x64x512_1_1_2_2_0_0.lhsBatch by decide),
    dif_pos (show (2 : Fin S4x1024x64.rank) ∈ dot_S4x1024x64_S4x1024x512_S4x64x512_1_1_2_2_0_0.lhsNonContracting by decide)]
  rfl
theorem agg_rhs_0 (j : S4x64x512.Idx) (q : dot_S4x1024x64_S4x1024x512_S4x64x512_1_1_2_2_0_0.contr.Idx) :
    (dot_S4x1024x64_S4x1024x512_S4x64x512_1_1_2_2_0_0.rhsIdx j q 0).val = (j 0).val := by
  unfold DotDims.rhsIdx
  rw [dif_pos (show (0 : Fin S4x1024x512.rank) ∈ dot_S4x1024x64_S4x1024x512_S4x64x512_1_1_2_2_0_0.rhsBatch by decide)]
  rfl
theorem agg_rhs_1 (j : S4x64x512.Idx) (q : dot_S4x1024x64_S4x1024x512_S4x64x512_1_1_2_2_0_0.contr.Idx) :
    (dot_S4x1024x64_S4x1024x512_S4x64x512_1_1_2_2_0_0.rhsIdx j q 1).val = (q ⟨0, by decide⟩).val :=
  dot_S4x1024x64_S4x1024x512_S4x64x512_1_1_2_2_0_0.rhsIdx_val_of_single rfl j q
theorem agg_rhs_2 (j : S4x64x512.Idx) (q : dot_S4x1024x64_S4x1024x512_S4x64x512_1_1_2_2_0_0.contr.Idx) :
    (dot_S4x1024x64_S4x1024x512_S4x64x512_1_1_2_2_0_0.rhsIdx j q 2).val = (j 2).val := by
  unfold DotDims.rhsIdx
  rw [dif_neg (show ¬(2 : Fin S4x1024x512.rank) ∈ dot_S4x1024x64_S4x1024x512_S4x64x512_1_1_2_2_0_0.rhsBatch by decide),
    dif_pos (show (2 : Fin S4x1024x512.rank) ∈ dot_S4x1024x64_S4x1024x512_S4x64x512_1_1_2_2_0_0.rhsNonContracting by decide)]
  rfl

/-- The scores' operands at output `(r, c)` and channel `k`: the pixels at `(r, k)`, the weights at `(k, c)`. -/
theorem scores_lhs (r : Fin 4096) (c : Fin 64) (k : Fin 512) :
    dot_S4096x512_S512x64_S4096x64_1_0_0_1_n_n.lhsIdx (ix2 r c) ((contrEquiv1 dot_S4096x512_S512x64_S4096x64_1_0_0_1_n_n 512 rfl rfl).symm k) = ix2 r k := by
  have hk := contrEquiv1_symm_val dot_S4096x512_S512x64_S4096x64_1_0_0_1_n_n 512 rfl rfl k
  exact funext fun a => Fin.ext (by
    match a with
    | ⟨0, _⟩ => exact scores_lhs_0 _ _
    | ⟨1, _⟩ => exact (scores_lhs_1 _ _).trans hk)

theorem scores_rhs (r : Fin 4096) (c : Fin 64) (k : Fin 512) :
    dot_S4096x512_S512x64_S4096x64_1_0_0_1_n_n.rhsIdx (ix2 r c) ((contrEquiv1 dot_S4096x512_S512x64_S4096x64_1_0_0_1_n_n 512 rfl rfl).symm k) = ix2 k c := by
  have hk := contrEquiv1_symm_val dot_S4096x512_S512x64_S4096x64_1_0_0_1_n_n 512 rfl rfl k
  exact funext fun a => Fin.ext (by
    match a with
    | ⟨0, _⟩ => exact (scores_rhs_0 _ _).trans hk
    | ⟨1, _⟩ => exact scores_rhs_1 _ _)

/-- The aggregate's operands at output `(bb, k, d)` and pixel `n`: the left at `(bb, n, k)`, the right at `(bb, n, d)`. -/
theorem agg_lhs (bb : Fin 4) (k : Fin 64) (d : Fin 512) (n : Fin 1024) :
    dot_S4x1024x64_S4x1024x512_S4x64x512_1_1_2_2_0_0.lhsIdx (ix3 bb k d) ((contrEquiv1 dot_S4x1024x64_S4x1024x512_S4x64x512_1_1_2_2_0_0 1024 rfl rfl).symm n) = ix3 bb n k := by
  have hn := contrEquiv1_symm_val dot_S4x1024x64_S4x1024x512_S4x64x512_1_1_2_2_0_0 1024 rfl rfl n
  exact funext fun a => Fin.ext (by
    match a with
    | ⟨0, _⟩ => exact agg_lhs_0 _ _
    | ⟨1, _⟩ => exact (agg_lhs_1 _ _).trans hn
    | ⟨2, _⟩ => exact agg_lhs_2 _ _)

theorem agg_rhs (bb : Fin 4) (k : Fin 64) (d : Fin 512) (n : Fin 1024) :
    dot_S4x1024x64_S4x1024x512_S4x64x512_1_1_2_2_0_0.rhsIdx (ix3 bb k d) ((contrEquiv1 dot_S4x1024x64_S4x1024x512_S4x64x512_1_1_2_2_0_0 1024 rfl rfl).symm n) = ix3 bb n d := by
  have hn := contrEquiv1_symm_val dot_S4x1024x64_S4x1024x512_S4x64x512_1_1_2_2_0_0 1024 rfl rfl n
  exact funext fun a => Fin.ext (by
    match a with
    | ⟨0, _⟩ => exact agg_rhs_0 _ _
    | ⟨1, _⟩ => exact (agg_rhs_1 _ _).trans hn
    | ⟨2, _⟩ => exact agg_rhs_2 _ _)

/-! ### The products -/

/-- The scores: at pixel `n` of image `bb` and cluster `k`, the sum over the channels of pixel times weight. -/
theorem kScores_apply (v0 : Vec Ideal S4x32x32x512 .f32) (v4 : Vec Ideal S512x64 .f32) (bb : Fin 4) (n : Fin 1024) (k : Fin 64) :
    kScores v0 v4 (ix3 bb n k) = ∑ d : Fin 512, v0 (ix4 bb (pixRow n) (pixCol n) d) * v4 (ix2 d k) := by
  unfold kScores
  refine (shapeCast_apply _ _ (ix3 bb n k) (ix2 (rowOf bb n) k) (by
    rw [Shape.rowMajor_val_three, Shape.rowMajor_val_two]; rfl)).trans ?_
  refine (Ideal.matmul_constant_zero_apply dot_S4096x512_S512x64_S4096x64_1_0_0_1_n_n none (kPixels v0)
    (truncf .bf16 v4 bitsLt_bf16_f32) (ix2 (rowOf bb n) k)).trans ?_
  rw [← Equiv.sum_comp (contrEquiv1 dot_S4096x512_S512x64_S4096x64_1_0_0_1_n_n 512 rfl rfl).symm]
  refine Finset.sum_congr rfl fun d _ => ?_
  rw [scores_lhs, scores_rhs, kPixels_apply]
  rfl

/-- The aggregate: at image `bb`, cluster `k`, channel `d`, the sum over the pixels. -/
theorem aggregate_apply (v18 : FVec Ideal S4x1024x64 .f32) (X : FVec Ideal S4x1024x512 .bf16) (bb : Fin 4) (k : Fin 64) (d : Fin 512) :
    matmul dot_S4x1024x64_S4x1024x512_S4x64x512_1_1_2_2_0_0 none (truncf .bf16 v18 bitsLt_bf16_f32) X
        (constant S4x64x512 .f32 0x00000000#32) (ix3 bb k d)
      = ∑ n : Fin 1024, v18 (ix3 bb n k) * X (ix3 bb n d) := by
  refine (Ideal.matmul_constant_zero_apply dot_S4x1024x64_S4x1024x512_S4x64x512_1_1_2_2_0_0 none
    (truncf .bf16 v18 bitsLt_bf16_f32) X (ix3 bb k d)).trans ?_
  rw [← Equiv.sum_comp (contrEquiv1 dot_S4x1024x64_S4x1024x512_S4x64x512_1_1_2_2_0_0 1024 rfl rfl).symm]
  refine Finset.sum_congr rfl fun n _ => ?_
  rw [agg_lhs, agg_rhs]
  rfl

end Cert.NetVlad.Products

end
-- ==== Proof.LibColumnLayouts.lean ====
/-
  Casts and broadcasts through a TRAILING unit axis, read at an index written by coordinates.

  A reduction that keeps its dimension, or a per-row scalar spread along a row, goes through shapes with a unit axis
  at the END: `[a] → [a, 1] → [a, b]` and `[a, b] → [a, b, 1] → [a, b, c]`. Each lemma below says which entry of the
  operand a cast or broadcast of that family reads, for any extents; the last one is a `[1, 1, c]` row spread over
  both leading axes. All are instances of the library's general reading of a shape cast (same row-major position)
  and of a broadcast (the operand at the trailing coordinates, `0` on its unit axes).
-/
import Idealize.ShloMosaic.Lib.Pipeline.Value
import Idealize.ShloMosaic.Lib.ValueIdx

noncomputable section

namespace Cert.ColumnLayouts

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, s, k)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (k : Fin c) :
    broadcastTo ⟨3, ![a, b, c]⟩ v h (ix3 p s k) = v (ix3 p s (0 : Fin 1)) := by
  refine broadcastTo_apply v h (ix3 p s k) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

/-- A `[1, 1, c]` row broadcast to `[a, b, c]` reads, at `(p, s, k)`, the row's entry `k`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (k : Fin c) :
    broadcastTo ⟨3, ![a, b, c]⟩ v h (ix3 p s k) = v (ix3 (0 : Fin 1) (0 : Fin 1) k) := by
  refine broadcastTo_apply v h (ix3 p s k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.ColumnLayouts

end
-- ==== Proof.LibBatchLayouts.lean ====
/-
  Broadcasts that spread a small array over LEADING or over BOTH TRAILING axes of a rank-3 result, read at an index
  written by coordinates, for any extents: a `[1, b, c]` slab repeated along the first axis, and an `[a, 1, 1]`
  column of scalars spread over the last two axes. Both are instances of the library's general reading of a
  broadcast (the operand at the result's coordinates, `0` on the operand's unit axes).
-/
import Idealize.ShloMosaic.Lib.Pipeline.Value
import Idealize.ShloMosaic.Lib.ValueIdx

noncomputable section

namespace Cert.BatchLayouts

open Idealize.ShloMosaic Idealize.ShloMosaic.ValueIdx

variable {α : Type}

/-- A `[1, b, c]` slab broadcast to `[a, b, c]` reads, at `(p, s, k)`, the slab's entry `(0, s, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (s : Fin b) (k : Fin c) :
    broadcastTo ⟨3, ![a, b, c]⟩ v h (ix3 p s k) = v (ix3 (0 : Fin 1) s k) := by
  refine broadcastTo_apply v h (ix3 p s k) (ix3 (0 : Fin 1) s k) fun ax => ?_
  match ax with
  | ⟨0, _⟩ => rfl
  | ⟨1, _⟩ =>
    show s.val = if b = 1 then 0 else s.val
    split
    · have := s.isLt; omega
    · rfl
  | ⟨2, _⟩ =>
    show k.val = if c = 1 then 0 else k.val
    split
    · have := k.isLt; omega
    · rfl

/-- An `[a, 1, 1]` column of scalars broadcast to `[a, b, c]` reads, at `(p, s, k)`, the scalar of `p`. -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (s : Fin b) (k : Fin c) :
    broadcastTo ⟨3, ![a, b, c]⟩ v h (ix3 p s k) = v (ix3 p (0 : Fin 1) (0 : Fin 1)) := by
  refine broadcastTo_apply v h (ix3 p s k) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.BatchLayouts

end
-- ==== Proof.LibReduceReads.lean ====
/-
  One-axis reductions of a rank-3 array read at an index written by coordinates, on the extended reals, for any
  extents: a sum over the last axis, a sum over the middle axis, and a maximum over the last axis. Each is the
  library's reading of a one-axis reduction (a sum, or a fold of `max`, over the reduced axis's coordinates of the
  source at the reduced index with the coordinate inserted) with the inserted index named by its coordinates.
-/
import Idealize.ShloMosaic.Lib.ValueIdx
import Idealize.ShloMosaic.PureOps.Ideal.Laws

noncomputable section

namespace Cert.ReduceReads

open Idealize.ShloMosaic Idealize.ShloMosaic.ValueIdx
open scoped BigOperators

variable {φ : FTy}

/-- Inserting `k` on the last axis of `(p, q)` gives `(p, q, k)`. -/
theorem lift_last {a b c : ℕ} (h : (⟨3, ![a, b, c]⟩ : Shape).Reduces [2] ⟨2, ![a, b]⟩) (p : Fin a) (q : Fin b) (k : Fin c) :
    h.lift (ix2 p q) k = ix3 p q k := by
  funext ax; apply Fin.ext
  match ax with
  | ⟨0, _⟩ => rfl
  | ⟨1, _⟩ => rfl
  | ⟨2, _⟩ => rfl

/-- Inserting `k` on the middle axis of `(p, q)` gives `(p, k, q)`. -/
theorem lift_middle {a b c : ℕ} (h : (⟨3, ![a, b, c]⟩ : Shape).Reduces [1] ⟨2, ![a, c]⟩) (p : Fin a) (q : Fin c) (k : Fin b) :
    h.lift (ix2 p q) k = ix3 p k q := by
  funext ax; apply Fin.ext
  match ax with
  | ⟨0, _⟩ => rfl
  | ⟨1, _⟩ => rfl
  | ⟨2, _⟩ => rfl

/-- A sum over the last axis, at `(p, q)`, is the sum over `k` of the source at `(p, q, k)`. -/
theorem sum_last_apply {a b c : ℕ} (v : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ v acc h hφ hacc (ix2 p q) = ∑ k : Fin c, v (ix3 p q k) :=
  (Ideal.multiReduction_add_single v acc h hφ hacc (ix2 p q)).trans
    (Finset.sum_congr rfl fun k _ => congrArg v (lift_last h p q k))

/-- A sum over the middle axis, at `(p, q)`, is the sum over `k` of the source at `(p, k, q)`. -/
theorem sum_middle_apply {a b c : ℕ} (v : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (q : Fin c) :
    multiReduction .add [1] ⟨2, ![a, c]⟩ v acc h hφ hacc (ix2 p q) = ∑ k : Fin b, v (ix3 p k q) :=
  (Ideal.multiReduction_add_single v acc h hφ hacc (ix2 p q)).trans
    (Finset.sum_congr rfl fun k _ => congrArg v (lift_middle h p q k))

/-- A maximum over the last axis, at `(p, q)`, is the fold of `max` from the accumulator's value over `k` of the
    source at `(p, q, k)`. -/
theorem max_last_apply {a b c : ℕ} (v : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (p : Fin a) (q : Fin b) :
    multiReduction .maximumf [2] ⟨2, ![a, b]⟩ v acc h hφ hacc (ix2 p q)
      = (Finset.univ : Finset (Fin c)).fold max (Ideal.ofBits φ acc) (fun k => v (ix3 p q k)) :=
  (Ideal.multiReduction_maximumf_single v acc h hφ hacc (ix2 p q)).trans
    (congrArg (fun f => (Finset.univ : Finset (Fin c)).fold max (Ideal.ofBits φ acc) f)
      (funext fun k => congrArg v (lift_last h p q k)))

end Cert.ReduceReads

end
-- ==== Proof.LibSumBlocks.lean ====
/-
  A general lemma file (Mathlib only): sums over a range cut into equal consecutive blocks. The sum over all
  indices of `Fin (n * b)` is the sum over the `n` blocks of the sums inside each block of `b` consecutive
  indices, for any commutative additive monoid; with the instances 4096 = 4 × 1024 and 4096 = 16 × 256. Used where a
  contraction or a reduction is computed block by block (a matrix product accumulated over blocks of the contracted
  axis, column sums formed per row block and added up afterwards).
-/
import Mathlib.Algebra.BigOperators.Fin
import Mathlib.Logic.Equiv.Fin.Basic

namespace Cert.SumBlocks

open scoped BigOperators

/-- A sum over `Fin (n * b)` is the sum over `n` consecutive blocks of `b` indices. -/
theorem sum_blocks {M : Type*} [AddCommMonoid M] (n b : ℕ) (f : Fin (n * b) → M) :
    ∑ u, f u = ∑ k : Fin n, ∑ r : Fin b, f ⟨b * k.val + r.val, by
      have hk := k.isLt; have hr := r.isLt
      have h1 : b * k.val + r.val < b * (k.val + 1) := by rw [Nat.mul_succ]; omega
      have h2 : b * (k.val + 1) ≤ b * n := Nat.mul_le_mul_left b hk
      rw [Nat.mul_comm n b]; exact lt_of_lt_of_le h1 h2⟩ := by
  rw [← Equiv.sum_comp (finProdFinEquiv (m := n) (n := b)) f, Fintype.sum_prod_type]
  refine Finset.sum_congr rfl fun k _ => Finset.sum_congr rfl fun r _ => congrArg f (Fin.ext ?_)
  simp [finProdFinEquiv, Nat.add_comm]

/-- 4096 indices as 4 blocks of 1024. -/
theorem sum_4x1024 {M : Type*} [AddCommMonoid M] (f : Fin 4096 → M) :
    ∑ u, f u = ∑ k : Fin 4, ∑ r : Fin 1024, f ⟨1024 * k.val + r.val, by have := k.isLt; have := r.isLt; omega⟩ :=
  sum_blocks 4 1024 f

/-- 4096 indices as 16 blocks of 256. -/
theorem sum_16x256 {M : Type*} [AddCommMonoid M] (f : Fin 4096 → M) :
    ∑ u, f u = ∑ k : Fin 16, ∑ r : Fin 256, f ⟨256 * k.val + r.val, by have := k.isLt; have := r.isLt; omega⟩ :=
  sum_blocks 16 256 f

end Cert.SumBlocks
-- ==== Proof.Vlad.lean ====
/-
  The NetVLAD descriptor of one image as a function of coordinates, on the extended reals, in the two forms the two
  programs compute it, and the proof that the two forms agree.

  For an image `X : 1024 pixels × 512 channels`, assignment weights `W : 512 × 64` and transposed cluster centres
  `Ct : 64 × 512`:
    score n k  = Σ_d X n d · W d k
    assign n k = exp (score n k − max_k score n k) / Σ_k' exp (score n k' − max …)         (a softmax over the 64 clusters)
    vlad k d   = Σ_n assign n k · X n d + (Σ_n assign n k) · Ct k d
  followed by an L2 normalisation of every cluster row `k` over `d` and an L2 normalisation of the whole 64 × 512
  array. One form multiplies by the reciprocal square root of (sum of squares + ε) and sums the squares cluster by
  cluster; the other divides by the square root of the same quantity and sums the squares over the flattened
  index `j = 64·d + k`. Since a sum of squares plus a positive ε is positive, `x · rsqrt y = x / sqrt y` holds at
  every such `y`, the infinite one included, so no finiteness of the inputs is used; the two orders of summation
  agree because addition of extended reals is commutative and associative.
-/
import Idealize.ShloMosaic.PureOps.Ideal
import Idealize.ShloMosaic.PureOps.Ideal.Laws
import proofs.«115963_j75557064672007_2_alg».proof.Proof.LibSumBlocks

noncomputable section

open Idealize.ShloMosaic
open scoped BigOperators

namespace Cert.NetVlad

/-- The bottom of the lattice, as the programs spell it (the pattern of −∞). -/
abbrev negInf : EReal := Ideal.ofBits .f32 0xFF800000#32
/-- The regulariser ε both programs add under the square roots (the same pattern on both sides). -/
abbrev eps : EReal := Ideal.ofBits .f32 0x2B8CBCCC#32

/-- ε is a positive real: (2^23 + 834764) · 2^(87 − 127 − 23). -/
theorem eps_pos : 0 < eps := by
  have h : eps = ((9223372 * (2 : ℝ) ^ (-63 : Int) : ℝ) : EReal) := by
    simp [eps, Ideal.ofBits, Ideal.ieee, -EReal.coe_mul]
  rw [h]
  have : (0 : ℝ) < 9223372 * (2 : ℝ) ^ (-63 : Int) := by positivity
  exact_mod_cast this

/-- A square is nonnegative on the extended reals, at the infinities too. -/
theorem mul_self_nonneg (x : EReal) : 0 ≤ x * x := by
  induction x using EReal.rec with
  | bot => rw [EReal.bot_mul_bot]; exact le_top
  | coe r => rw [← EReal.coe_mul]; exact_mod_cast _root_.mul_self_nonneg r
  | top => rw [EReal.top_mul_top]; exact le_top

/-- A sum of squares plus ε is positive. -/
theorem sumsq_add_eps_pos {ι : Type*} (s : Finset ι) (f : ι → EReal) : 0 < (∑ i ∈ s, f i * f i) + eps :=
  lt_of_lt_of_le eps_pos (le_add_of_nonneg_left (Finset.sum_nonneg fun i _ => mul_self_nonneg (f i)))

/-- Multiplying by the reciprocal square root of a positive extended real is dividing by its square root: at a
    positive real both are `x · (√y)⁻¹`, at +∞ both are `x · 0`. -/
theorem mul_rsqrt_eq_div_sqrt (x y : EReal) (hy : 0 < y) : x * Ideal.rsqrt y = Ideal.div x (Ideal.sqrt y) := by
  induction y using EReal.rec with
  | bot => exact absurd hy (not_lt_bot)
  | top => rw [Ideal.rsqrt_top, Ideal.sqrt_top, Ideal.div, if_neg EReal.top_ne_zero, EReal.inv_top]
  | coe r =>
    have hr : 0 < r := by exact_mod_cast hy
    have hs : 0 < Real.sqrt r := Real.sqrt_pos.mpr hr
    have hs' : ((Real.sqrt r : ℝ) : EReal) ≠ 0 := by exact_mod_cast hs.ne'
    rw [Ideal.rsqrt_coe, if_neg (not_lt.mpr hr.le), if_neg hr.ne', Ideal.sqrt_coe, if_neg (not_lt.mpr hr.le), Ideal.div, if_neg hs',
      EReal.coe_inv]

section Image

variable (X : Fin 1024 → Fin 512 → EReal) (W : Fin 512 → Fin 64 → EReal) (Ct : Fin 64 → Fin 512 → EReal)

/-- A pixel's score against a cluster. -/
def score (n : Fin 1024) (k : Fin 64) : EReal := ∑ d : Fin 512, X n d * W d k
/-- A pixel's largest score (the maximum is taken from −∞, and once more against −∞, as both programs do). -/
def rowMax (n : Fin 1024) : EReal := max negInf ((Finset.univ : Finset (Fin 64)).fold max negInf fun k => score X W n k)
/-- The exponential of a score shifted by the pixel's largest score. -/
def expo (n : Fin 1024) (k : Fin 64) : EReal := Ideal.exp (score X W n k - rowMax X W n)
/-- The soft assignment of a pixel to a cluster. -/
def assign (n : Fin 1024) (k : Fin 64) : EReal := Ideal.div (expo X W n k) (∑ k' : Fin 64, expo X W n k')
/-- The aggregated residuals: the assignment-weighted sum of the pixels plus the total assignment times the centre. -/
def vlad (k : Fin 64) (d : Fin 512) : EReal :=
  (∑ n : Fin 1024, assign X W n k * X n d) + (∑ n : Fin 1024, assign X W n k) * Ct k d
/-- A cluster row's sum of squares. -/
def rowSS (k : Fin 64) : EReal := ∑ d : Fin 512, vlad X W Ct k d * vlad X W Ct k d

/-- The row-normalised descriptor, by the reciprocal square root. -/
def intraK (k : Fin 64) (d : Fin 512) : EReal := vlad X W Ct k d * Ideal.rsqrt (rowSS X W Ct k + eps)
/-- Its total sum of squares, cluster by cluster. -/
def totK : EReal := ∑ k : Fin 64, ∑ d : Fin 512, intraK X W Ct k d * intraK X W Ct k d
/-- The descriptor normalised as a whole, by the reciprocal square root. -/
def outK (k : Fin 64) (d : Fin 512) : EReal := intraK X W Ct k d * Ideal.rsqrt (totK X W Ct + eps)

/-- The row-normalised descriptor, by the quotient. -/
def intraR (k : Fin 64) (d : Fin 512) : EReal := Ideal.div (vlad X W Ct k d) (Ideal.sqrt (rowSS X W Ct k + eps))
/-- Its total sum of squares over the flattened index `j = 64·d + k`. -/
def totR : EReal := ∑ j : Fin 32768,
  intraR X W Ct ⟨j.val % 64, Nat.mod_lt _ (by decide)⟩ ⟨j.val / 64, by have := j.isLt; omega⟩
    * intraR X W Ct ⟨j.val % 64, Nat.mod_lt _ (by decide)⟩ ⟨j.val / 64, by have := j.isLt; omega⟩
/-- The descriptor normalised as a whole, by the quotient. -/
def outR (k : Fin 64) (d : Fin 512) : EReal := Ideal.div (intraR X W Ct k d) (Ideal.sqrt (totR X W Ct + eps))

theorem intraK_eq_intraR (k : Fin 64) (d : Fin 512) : intraK X W Ct k d = intraR X W Ct k d :=
  mul_rsqrt_eq_div_sqrt _ _ (sumsq_add_eps_pos _ _)

/-- The sum over the flattened index is the sum cluster by cluster. -/
theorem totR_eq_totK : totR X W Ct = totK X W Ct := by
  unfold totR totK
  rw [Cert.SumBlocks.sum_blocks 512 64, Finset.sum_comm]
  refine Finset.sum_congr rfl fun k _ => Finset.sum_congr rfl fun d _ => ?_
  have e1 : (⟨(64 * d.val + k.val) % 64, Nat.mod_lt _ (by decide)⟩ : Fin 64) = k :=
    Fin.ext (by have := k.isLt; show (64 * d.val + k.val) % 64 = k.val; omega)
  have e2 : (⟨(64 * d.val + k.val) / 64, by have := k.isLt; have := d.isLt; omega⟩ : Fin 512) = d :=
    Fin.ext (by have := k.isLt; show (64 * d.val + k.val) / 64 = d.val; omega)
  show intraR X W Ct ⟨(64 * d.val + k.val) % 64, _⟩ ⟨(64 * d.val + k.val) / 64, _⟩
      * intraR X W Ct ⟨(64 * d.val + k.val) % 64, _⟩ ⟨(64 * d.val + k.val) / 64, _⟩ = _
  rw [e1, e2, intraK_eq_intraR]

/-- THE TWO FORMS AGREE. -/
theorem outK_eq_outR (k : Fin 64) (d : Fin 512) : outK X W Ct k d = outR X W Ct k d := by
  unfold outK outR
  rw [totR_eq_totK, ← intraK_eq_intraR]
  exact mul_rsqrt_eq_div_sqrt _ _ (by
    unfold totK
    rw [← Finset.sum_product']
    exact sumsq_add_eps_pos _ _)

end Image

end Cert.NetVlad

end
-- ==== Proof.VladArrays.lean ====
/-
  The descriptor of a whole batch as ONE function of the three argument arrays, index by index.

  The batch `x : 64 × 32 × 32 × 512` is 64 images of 32 × 32 pixels; pixel `n` of an image is the one at row `n / 32`,
  column `n % 32`. The weights `w : 512 × 64` are read as they are and the cluster centres `c : 512 × 64` transposed. The
  result `64 × 32768` holds, for image `b` at the flattened index `j = 64·d + k`, the normalised descriptor's entry
  at cluster `k`, channel `d`.
-/
import Idealize.ShloMosaic.Lib.ValueIdx
import proofs.«115963_j75557064672007_2_alg».proof.Proof.Vlad

noncomputable section

open Idealize.ShloMosaic Idealize.ShloMosaic.ValueIdx
open scoped BigOperators

namespace Cert.NetVlad

/-- Image `b` of the batch as pixels × channels. -/
def image (x : (⟨4, ![64, 32, 32, 512]⟩ : Shape).Idx → EReal) (b : Fin 64) : Fin 1024 → Fin 512 → EReal :=
  fun n d => x (ix4 b (⟨n.val / 32, by have := n.isLt; omega⟩ : Fin 32) (⟨n.val % 32, Nat.mod_lt _ (by decide)⟩ : Fin 32) d)

/-- The assignment weights by coordinates. -/
def weights (w : (⟨2, ![512, 64]⟩ : Shape).Idx → EReal) : Fin 512 → Fin 64 → EReal := fun d k => w (ix2 d k)

/-- The cluster centres transposed: cluster first, channel second. -/
def centresT (c : (⟨2, ![512, 64]⟩ : Shape).Idx → EReal) : Fin 64 → Fin 512 → EReal := fun k d => c (ix2 d k)

/-- The cluster and the channel of a flattened index `j = 64·d + k`. -/
abbrev clusterOf (j : Fin 32768) : Fin 64 := ⟨j.val % 64, Nat.mod_lt _ (by decide)⟩
abbrev channelOf (j : Fin 32768) : Fin 512 := ⟨j.val / 64, by have := j.isLt; omega⟩

/-- The batch's descriptors, normalised by reciprocal square roots. -/
def descriptorK (x : (⟨4, ![64, 32, 32, 512]⟩ : Shape).Idx → EReal) (w c : (⟨2, ![512, 64]⟩ : Shape).Idx → EReal) :
    (⟨2, ![64, 32768]⟩ : Shape).Idx → EReal :=
  fun i => outK (image x (i 0)) (weights w) (centresT c) (clusterOf (i 1)) (channelOf (i 1))

/-- The batch's descriptors, normalised by quotients. -/
def descriptorR (x : (⟨4, ![64, 32, 32, 512]⟩ : Shape).Idx → EReal) (w c : (⟨2, ![512, 64]⟩ : Shape).Idx → EReal) :
    (⟨2, ![64, 32768]⟩ : Shape).Idx → EReal :=
  fun i => outR (image x (i 0)) (weights w) (centresT c) (clusterOf (i 1)) (channelOf (i 1))

/-- They are one function. -/
theorem descriptorK_eq_descriptorR (x : (⟨4, ![64, 32, 32, 512]⟩ : Shape).Idx → EReal) (w c : (⟨2, ![512, 64]⟩ : Shape).Idx → EReal) :
    descriptorK x w c = descriptorR x w c :=
  funext fun i => outK_eq_outR _ _ _ _ _

end Cert.NetVlad

end
-- ==== Proof.KernelBody.lean ====
/-
  The kernel body's stored value at an index is the descriptor of one image of the block.

  For the block's image `bb` (its pixels `blockImage v0 bb`), the weights and the transposed centres as loaded, the
  value the body stores at `(bb, k, d)` is `outK` of that image at cluster `k`, channel `d`: each stage of the body, read
  at an index, is the corresponding quantity of the descriptor — the scores, each pixel's largest score, the
  shifted exponentials, the soft assignments, the aggregated residuals, the row-normalised descriptor, its rows'
  sums of squares, and the whole normalisation. Row sums kept with a trailing unit axis and spread back along the
  row read the row's one entry; the centres, viewed with a leading unit axis and spread over the four images, read
  the same entry for every image.
-/
import proofs.«115963_j75557064672007_2_alg».proof.Proof.KernelProducts
import proofs.«115963_j75557064672007_2_alg».proof.Proof.LibColumnLayouts
import proofs.«115963_j75557064672007_2_alg».proof.Proof.LibBatchLayouts
import proofs.«115963_j75557064672007_2_alg».proof.Proof.LibReduceReads
import proofs.«115963_j75557064672007_2_alg».proof.Proof.VladArrays
import Idealize.ShloMosaic.Lib.ValueLayout

noncomputable section

namespace Cert.NetVlad.Body

open Idealize.ShloMosaic Idealize.ShloMosaic.ValueIdx Cert.KernelIdeal Cert.KernelIdeal.Facts₀
open Cert.NetVlad Cert.NetVlad.Stages Cert.NetVlad.Products Cert.ColumnLayouts Cert.BatchLayouts Cert.ReduceReads
open scoped BigOperators

/-- Image `bb` of a loaded block as pixels × channels. -/
def blockImage (v0 : Vec Ideal S4x32x32x512 .f32) (bb : Fin 4) : Fin 1024 → Fin 512 → EReal :=
  fun n d => v0 (ix4 bb (pixRow n) (pixCol n) d)

/-- The loaded transposed centres by coordinates. -/
def blockCentres (v23 : Vec Ideal S64x512 .f32) : Fin 64 → Fin 512 → EReal := fun k d => v23 (ix2 k d)

/-! ### Each stage at an index, over any operand -/

theorem kRowMax_apply (v7 : FVec Ideal S4x1024x64 .f32) (bb : Fin 4) (n : Fin 1024) :
    kRowMax v7 (ix2 bb n) = max negInf ((Finset.univ : Finset (Fin 64)).fold max negInf fun k => v7 (ix3 bb n k)) := by
  unfold kRowMax
  show max negInf (multiReduction .maximumf [2] S4x1024 v7 0xFF800000#32 reduces_S4x1024x64_S4x1024 (.inl rfl) rfl (ix2 bb n)) = _
  exact congrArg (max negInf) (max_last_apply v7 _ _ _ _ bb n)

theorem kExp_apply (v7 : FVec Ideal S4x1024x64 .f32) (bb : Fin 4) (n : Fin 1024) (k : Fin 64) :
    kExp v7 (ix3 bb n k) = Ideal.exp (v7 (ix3 bb n k) - kRowMax v7 (ix2 bb n)) := by
  unfold kExp
  show Ideal.exp (v7 (ix3 bb n k) - broadcastTo S4x1024x64 (shapeCast S4x1024x1 (kRowMax v7) shapeCasts_S4x1024_S4x1024x1)
    broadcasts_S4x1024x1_S4x1024x64 (ix3 bb n k)) = _
  exact congrArg (fun z => Ideal.exp (v7 (ix3 bb n k) - z))
    ((broadcastTo_ab1_abc_apply _ _ bb n k).trans (shapeCast_ab_ab1_apply _ _ bb n 0))

theorem kAssign_apply (v7 : FVec Ideal S4x1024x64 .f32) (bb : Fin 4) (n : Fin 1024) (k : Fin 64) :
    kAssign v7 (ix3 bb n k) = Ideal.div (kExp v7 (ix3 bb n k)) (∑ k' : Fin 64, kExp v7 (ix3 bb n k')) := by
  unfold kAssign
  show Ideal.div (kExp v7 (ix3 bb n k)) (broadcastTo S4x1024x64
    (shapeCast S4x1024x1 (multiReduction .add [2] S4x1024 (kExp v7) 0x00000000#32 reduces_S4x1024x64_S4x1024 (.inl rfl) rfl)
      shapeCasts_S4x1024_S4x1024x1) broadcasts_S4x1024x1_S4x1024x64 (ix3 bb n k)) = _
  exact congrArg (Ideal.div (kExp v7 (ix3 bb n k)))
    ((broadcastTo_ab1_abc_apply _ _ bb n k).trans ((shapeCast_ab_ab1_apply _ _ bb n 0).trans (sum_last_apply _ _ _ _ _ bb n)))

theorem kVlad_apply (v0 : Vec Ideal S4x32x32x512 .f32) (v18 : FVec Ideal S4x1024x64 .f32) (v23 : Vec Ideal S64x512 .f32)
    (bb : Fin 4) (k : Fin 64) (d : Fin 512) :
    kVlad v0 v18 v23 (ix3 bb k d)
      = (∑ n : Fin 1024, v18 (ix3 bb n k) * blockImage v0 bb n d) + (∑ n : Fin 1024, v18 (ix3 bb n k)) * blockCentres v23 k d := by
  unfold kVlad
  show matmul dot_S4x1024x64_S4x1024x512_S4x64x512_1_1_2_2_0_0 none (truncf .bf16 v18 bitsLt_bf16_f32)
        (shapeCast S4x1024x512 (kPixels v0) shapeCasts_S4096x512_S4x1024x512) (constant S4x64x512 .f32 0x00000000#32) (ix3 bb k d)
      + broadcastTo S4x64x512
          (shapeCast S4x64x1 (multiReduction .add [1] S4x64 v18 0x00000000#32 reduces_S4x1024x64_S4x64 (.inl rfl) rfl)
            shapeCasts_S4x64_S4x64x1) broadcasts_S4x64x1_S4x64x512 (ix3 bb k d)
        * broadcastTo S4x64x512
          (shapeCast S1x64x512 (shapeCast S64x512 v23 shapeCasts_S64x512_S64x512) shapeCasts_S64x512_S1x64x512)
          broadcasts_S1x64x512_S4x64x512 (ix3 bb k d) = _
  have h1 := (aggregate_apply v18 (shapeCast S4x1024x512 (kPixels v0) shapeCasts_S4096x512_S4x1024x512) bb k d).trans
    (Finset.sum_congr rfl fun n _ => congrArg (v18 (ix3 bb n k) * ·) (kPixels_regrouped_apply v0 bb n d))
  have h2 := (broadcastTo_ab1_abc_apply
      (shapeCast S4x64x1 (multiReduction .add [1] S4x64 v18 0x00000000#32 reduces_S4x1024x64_S4x64 (.inl rfl) rfl)
        shapeCasts_S4x64_S4x64x1) broadcasts_S4x64x1_S4x64x512 bb k d).trans
    ((shapeCast_ab_ab1_apply _ _ bb k 0).trans (sum_middle_apply v18 _ _ _ _ bb k))
  have h3 := (broadcastTo_1bc_abc_apply
      (shapeCast S1x64x512 (shapeCast S64x512 v23 shapeCasts_S64x512_S64x512) shapeCasts_S64x512_S1x64x512)
      broadcasts_S1x64x512_S4x64x512 bb k d).trans
    ((shapeCast_ab_1ab_apply _ _ 0 k d).trans (congrFun (shapeCast_self v23 shapeCasts_S64x512_S64x512) (ix2 k d)))
  rw [h1, h2, h3]
  rfl

theorem kRowSS_apply (v : FVec Ideal S4x64x512 .f32) (bb : Fin 4) (k : Fin 64) (u : Fin 1) :
    kRowSS v (ix3 bb k u) = ∑ d : Fin 512, v (ix3 bb k d) * v (ix3 bb k d) := by
  unfold kRowSS
  exact (shapeCast_ab_ab1_apply _ _ bb k u).trans (sum_last_apply (mulf v v) _ _ _ _ bb k)

theorem kIntra_apply (v30 : FVec Ideal S4x64x512 .f32) (bb : Fin 4) (k : Fin 64) (d : Fin 512) :
    kIntra v30 (ix3 bb k d)
      = v30 (ix3 bb k d) * Ideal.rsqrt ((∑ d' : Fin 512, v30 (ix3 bb k d') * v30 (ix3 bb k d')) + eps) := by
  unfold kIntra
  show v30 (ix3 bb k d) * broadcastTo S4x64x512
    (rsqrt (addf (kRowSS v30) (broadcast S4x64x1 (Scalar.ofBits .f32 0x2B8CBCCC#32)))) broadcasts_S4x64x1_S4x64x512 (ix3 bb k d) = _
  refine congrArg (v30 (ix3 bb k d) * ·) ((broadcastTo_ab1_abc_apply _ _ bb k d).trans ?_)
  show Ideal.rsqrt (kRowSS v30 (ix3 bb k (0 : Fin 1)) + eps) = _
  rw [kRowSS_apply]

theorem kOut_apply (v38 : FVec Ideal S4x64x512 .f32) (v41 : FVec Ideal S4x64x1 .f32) (bb : Fin 4) (k : Fin 64) (d : Fin 512) :
    kOut v38 v41 (ix3 bb k d)
      = v38 (ix3 bb k d) * Ideal.rsqrt ((∑ k' : Fin 64, v41 (ix3 bb k' (0 : Fin 1))) + eps) := by
  unfold kOut
  show v38 (ix3 bb k d) * broadcastTo S4x64x512
    (rsqrt (addf
      (shapeCast S4x1x1 (multiReduction .add [1] S4x1 v41 0x00000000#32 reduces_S4x64x1_S4x1 (.inl rfl) rfl) shapeCasts_S4x1_S4x1x1)
      (broadcast S4x1x1 (Scalar.ofBits .f32 0x2B8CBCCC#32)))) broadcasts_S4x1x1_S4x64x512 (ix3 bb k d) = _
  refine congrArg (v38 (ix3 bb k d) * ·) ((broadcastTo_a11_abc_apply _ _ bb k d).trans ?_)
  show Ideal.rsqrt (shapeCast S4x1x1 (multiReduction .add [1] S4x1 v41 0x00000000#32 reduces_S4x64x1_S4x1 (.inl rfl) rfl)
    shapeCasts_S4x1_S4x1x1 (ix3 bb (0 : Fin 1) (0 : Fin 1)) + eps) = _
  exact congrArg (fun z => Ideal.rsqrt (z + eps))
    ((shapeCast_ab_ab1_apply _ _ bb 0 0).trans (sum_middle_apply v41 _ _ _ _ bb 0))

/-! ### The stages are the descriptor's quantities -/

section Descriptor

variable (v0 : Vec Ideal S4x32x32x512 .f32) (v4 : Vec Ideal S512x64 .f32) (v23 : Vec Ideal S64x512 .f32) (bb : Fin 4)

theorem scores_eq (n : Fin 1024) (k : Fin 64) :
    kScores v0 v4 (ix3 bb n k) = score (blockImage v0 bb) (weights v4) n k :=
  kScores_apply v0 v4 bb n k

theorem rowMax_eq (n : Fin 1024) : kRowMax (kScores v0 v4) (ix2 bb n) = rowMax (blockImage v0 bb) (weights v4) n := by
  rw [kRowMax_apply]
  unfold rowMax
  exact congrArg (fun f => max negInf ((Finset.univ : Finset (Fin 64)).fold max negInf f)) (funext fun k => scores_eq v0 v4 bb n k)

theorem expo_eq (n : Fin 1024) (k : Fin 64) :
    kExp (kScores v0 v4) (ix3 bb n k) = expo (blockImage v0 bb) (weights v4) n k := by
  rw [kExp_apply, scores_eq, rowMax_eq]; rfl

theorem assign_eq (n : Fin 1024) (k : Fin 64) :
    kAssign (kScores v0 v4) (ix3 bb n k) = assign (blockImage v0 bb) (weights v4) n k := by
  rw [kAssign_apply, expo_eq]
  unfold assign
  exact congrArg (Ideal.div _) (Finset.sum_congr rfl fun k' _ => expo_eq v0 v4 bb n k')

theorem vlad_eq (k : Fin 64) (d : Fin 512) :
    kVlad v0 (kAssign (kScores v0 v4)) v23 (ix3 bb k d) = vlad (blockImage v0 bb) (weights v4) (blockCentres v23) k d := by
  rw [kVlad_apply]
  unfold vlad
  rw [Finset.sum_congr rfl fun n _ => congrArg (· * blockImage v0 bb n d) (assign_eq v0 v4 bb n k),
    Finset.sum_congr rfl fun n _ => assign_eq v0 v4 bb n k]

theorem intra_eq (k : Fin 64) (d : Fin 512) :
    kIntra (kVlad v0 (kAssign (kScores v0 v4)) v23) (ix3 bb k d)
      = intraK (blockImage v0 bb) (weights v4) (blockCentres v23) k d := by
  rw [kIntra_apply, vlad_eq]
  unfold intraK rowSS
  rw [Finset.sum_congr rfl fun d' _ => by rw [vlad_eq]]

/-- THE BODY'S STORED VALUE, at image `bb` of the block, cluster `k`, channel `d`. -/
theorem payload_apply (k : Fin 64) (d : Fin 512) :
    Gen.k0_pay1 (F := Ideal) (Gen.k0_pay2 (F := Ideal) v0 v4 v23) (Gen.k0_pay3 (F := Ideal) v0 v4 v23) (ix3 bb k d)
      = outK (blockImage v0 bb) (weights v4) (blockCentres v23) k d := by
  rw [pay1_eq, pay3_eq, pay2_eq, kOut_apply, intra_eq]
  unfold outK totK
  rw [Finset.sum_congr rfl fun k' _ => (kRowSS_apply _ bb k' 0).trans
    (Finset.sum_congr rfl fun d' _ => by rw [intra_eq])]

end Descriptor

end Cert.NetVlad.Body

end
-- ==== Proof.KernelArray.lean ====
/-
  The region's output array after the run: every image's descriptor.

  The grid has 16 points; point `t` loads the four images `4t … 4t + 3` (a block `4 × 32 × 32 × 512` of the batch), the
  whole weights and the whole transposed centres, and writes back the block `4 × 64 × 512` of the output at images
  `4t … 4t + 3`. What the body stores at `(bb, k, d)` is the descriptor of the block's image `bb`, so what point `t`
  writes back is the block of ONE function of the arrays as the region finds them: at `(b, k, d)`, the descriptor of
  image `b` at cluster `k`, channel `d`. The sixteen blocks tile the output (image `b` is in point `b / 4`'s block), so
  the output array ends holding that function everywhere.
-/
import proofs.«115963_j75557064672007_2_alg».proof.Proof.Gen.KernelIdeal.Frame
import proofs.«115963_j75557064672007_2_alg».proof.Proof.KernelBody
import Idealize.ShloMosaic.Lib.Pipeline.Value

set_option maxRecDepth 16384

noncomputable section

namespace Cert.NetVlad.Region

open Idealize.ShloMosaic Idealize.ShloMosaic.TcCoe Idealize.ShloMosaic.ValueIdx Idealize.SL.Sem
open Cert.KernelIdeal Cert.KernelIdeal.Gen Cert.NetVlad Cert.NetVlad.Body Cert.NetVlad.Products
open Idealize.ShloMosaic.Pipeline (Dat)
open scoped BigOperators

/-- The output array as one function of the batch, the weights and the transposed centres. -/
def regionResult (X : S64x32x32x512.Idx → EReal) (W : S512x64.Idx → EReal) (Ct : S64x512.Idx → EReal) :
    S64x64x512.Idx → EReal :=
  fun i => outK (image X (i 0)) (weights W) (blockCentres Ct) (i 1) (i 2)

/-- WHAT ONE POINT STORES, over any loaded blocks: if the loaded images are the batch's images `4·q + bb`, the loaded
    weights and centres the whole arrays, then the stored value at `y = (bb, k, d)` is `regionResult` at
    `i = (4·q + bb, k, d)`. -/
theorem point_value (x0 : Vec Ideal S4x32x32x512 .f32) (x1 : Vec Ideal S512x64 .f32) (x2 : Vec Ideal S64x512 .f32)
    (X : S64x32x32x512.Idx → EReal) (W : S512x64.Idx → EReal) (Ct : S64x512.Idx → EReal) (q : Nat)
    (h0 : ∀ (bb : Fin 4) (r s : Fin 32) (d : Fin 512) (b : Fin 64), b.val = q * 4 + bb.val → x0 (ix4 bb r s d) = X (ix4 b r s d))
    (h1 : x1 = W) (h2 : x2 = Ct) (y : S4x64x512.Idx) (i : S64x64x512.Idx)
    (hi0 : (i 0).val = q * 4 + (y 0).val) (hi1 : (i 1).val = (y 1).val) (hi2 : (i 2).val = (y 2).val) :
    k0_pay1 (F := Ideal) (k0_pay2 (F := Ideal) x0 x1 x2) (k0_pay3 (F := Ideal) x0 x1 x2) y = regionResult X W Ct i := by
  obtain ⟨bb, k, d, rfl⟩ : ∃ (bb : Fin 4) (k : Fin 64) (d : Fin 512), y = ix3 bb k d := ⟨y 0, y 1, y 2, eq_ix3 y⟩
  obtain ⟨b, k', d', rfl⟩ : ∃ (b : Fin 64) (k' : Fin 64) (d' : Fin 512), i = ix3 b k' d' := ⟨i 0, i 1, i 2, eq_ix3 i⟩
  have hb : b.val = q * 4 + bb.val := hi0
  obtain rfl : k' = k := Fin.ext hi1
  obtain rfl : d' = d := Fin.ext hi2
  subst h1 h2
  rw [payload_apply]
  show outK (blockImage x0 bb) (weights x1) (blockCentres x2) k' d' = outK (image X b) (weights x1) (blockCentres x2) k' d'
  have himg : blockImage x0 bb = image X b := funext fun n => funext fun d => h0 bb (pixRow n) (pixCol n) d b hb
  rw [himg]

variable (m : (ℓ : Loc nD τ sig) → Buf (Elt Ideal) ℓ)

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The printed index maps, decided over the grid: the batch window and the output window move together along the
    images, the point's number being the block's index; every other block index is zero. -/
theorem index_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- WHAT POINT `t` WRITES BACK is block `t` of `regionResult` of the arrays as the region finds them. -/
theorem flushed_eq (c : Dev nD) (t : Fin cfg0.N) :
    (dats m 0 c).flushed 3 t
      = ((cfg0.win 3).blk t).view.read (Elt Ideal) (regionResult (V m c main_arg0) (V m c main_arg1) (V m c main_v0)) := by
  show (cfg0.win 3).cut (grid0.coords t) ((dats m 0 c).after 3 t) = _
  rw [after0_3]
  unfold out0_3
  rw [View.canon_unit_zero zeros3]
  simp only [View.ld_unit_zero (S := S4x32x32x512) zeros4, View.ld_unit_zero (S := S512x64) zeros2,
    View.ld_unit_zero (S := S64x512) zeros2]
  obtain ⟨e00, e01, e02, e03, e10, e11, e20, e21, e30, e31, e32⟩ := index_facts t
  funext j
  show k0_pay1 (F := Ideal) (k0_pay2 (F := Ideal) (iblk m c 0 t) (iblk m c 1 t) (iblk m c 2 t))
      (k0_pay3 (F := Ideal) (iblk m c 0 t) (iblk m c 1 t) (iblk m c 2 t)) j
    = regionResult (V m c main_arg0) (V m c main_arg1) (V m c main_v0) (((cfg0.win 3).blk t).view.emb j)
  refine point_value (iblk m c 0 t) (iblk m c 1 t) (iblk m c 2 t) _ _ _ t.val ?_ ?_ ?_ j _ ?_ ?_ ?_
  · intro bb r s d b hb
    show V m c main_arg0 (((cfg0.win 0).blk t).view.emb (ix4 bb r s d)) = V m c main_arg0 (ix4 b r s d)
    refine congrArg _ (funext fun a => Fin.ext ?_)
    match a with
    | ⟨0, _⟩ => show win0_0.index t (0 : Fin 4) * 4 + 1 * bb.val = b.val; omega
    | ⟨1, _⟩ => show win0_0.index t (1 : Fin 4) * 32 + 1 * r.val = r.val; omega
    | ⟨2, _⟩ => show win0_0.index t (2 : Fin 4) * 32 + 1 * s.val = s.val; omega
    | ⟨3, _⟩ => show win0_0.index t (3 : Fin 4) * 512 + 1 * d.val = d.val; omega
  · funext y
    show V m c main_arg1 (((cfg0.win 1).blk t).view.emb y) = V m c main_arg1 y
    refine congrArg _ (funext fun a => Fin.ext ?_)
    match a with
    | ⟨0, _⟩ => show win0_1.index t (0 : Fin 2) * 512 + 1 * (y 0).val = (y 0).val; omega
    | ⟨1, _⟩ => show win0_1.index t (1 : Fin 2) * 64 + 1 * (y 1).val = (y 1).val; omega
  · funext y
    show V m c main_v0 (((cfg0.win 2).blk t).view.emb y) = V m c main_v0 y
    refine congrArg _ (funext fun a => Fin.ext ?_)
    match a with
    | ⟨0, _⟩ => show win0_2.index t (0 : Fin 2) * 64 + 1 * (y 0).val = (y 0).val; omega
    | ⟨1, _⟩ => show win0_2.index t (1 : Fin 2) * 512 + 1 * (y 1).val = (y 1).val; omega
  · show win0_3.index t (0 : Fin 3) * 4 + 1 * (j 0).val = t.val * 4 + (j 0).val; omega
  · show win0_3.index t (1 : Fin 3) * 64 + 1 * (j 1).val = (j 1).val; omega
  · show win0_3.index t (2 : Fin 3) * 512 + 1 * (j 2).val = (j 2).val; omega

/-- An index of the output array is in point `t`'s block iff each coordinate is in the block's range on its axis. -/
theorem mem_blk (t : Fin cfg0.N) (i : S64x64x512.Idx) :
    i ∈ ((cfg0.win 3).blk t).view.set ↔ ∀ a : Fin 3, win0_3.index t a * S4x64x512.size a ≤ (i a).val
      ∧ (i a).val < win0_3.index t a * S4x64x512.size a + S4x64x512.size a := by
  show i ∈ ((View.whole main_v1).slice (win0_3.rect t)).set ↔ _
  rw [View.set_slice_whole, Rect.mem_set_unit]
  exact Iff.rfl

/-- Every image is in some point's block: image `b` in point `b / 4`'s. -/
theorem covered (i : S64x64x512.Idx) :
    ∃ t : Fin cfg0.N, (cfg0.win 3).flush t = true ∧ i ∈ ((cfg0.win 3).blk t).view.set := by
  have hi0 : (i 0).val < 64 := (i 0).isLt
  have hi1 : (i 1).val < 64 := (i 1).isLt
  have hi2 : (i 2).val < 512 := (i 2).isLt
  have hN : cfg0.N = 16 := N_0
  let t : Fin cfg0.N := ⟨(i 0).val / 4, by rw [hN]; omega⟩
  obtain ⟨-, -, -, -, -, -, -, -, e30, e31, e32⟩ := index_facts t
  have ht : t.val = (i 0).val / 4 := rfl
  refine ⟨t, flush0_3 t, ?_⟩
  rw [mem_blk]
  intro a
  match a with
  | ⟨0, _⟩ => show win0_3.index t (0 : Fin 3) * 4 ≤ (i 0).val ∧ (i 0).val < win0_3.index t (0 : Fin 3) * 4 + 4; omega
  | ⟨1, _⟩ => show win0_3.index t (1 : Fin 3) * 64 ≤ (i 1).val ∧ (i 1).val < win0_3.index t (1 : Fin 3) * 64 + 64; omega
  | ⟨2, _⟩ => show win0_3.index t (2 : Fin 3) * 512 ≤ (i 2).val ∧ (i 2).val < win0_3.index t (2 : Fin 3) * 512 + 512; omega

/-- THE OUTPUT ARRAY after the run. -/
theorem final (c : Dev nD) :
    (dats m 0 c).arrAt 3 cfg0.N = regionResult (V m c main_arg0) (V m c main_arg1) (V m c main_v0) :=
  (dats m 0 c).arrAt_eq_of_cover 3 _ (fun t _ => flushed_eq m c t) covered

end Cert.NetVlad.Region

end
-- ==== Proof.KernelHost.lean ====
/-
  The host operations of the kernel program around its region, read at an index.

  Before the region the cluster centres `512 × 64` are transposed to `64 × 512`: the entry at (cluster, channel) is
  the argument's entry at (channel, cluster). After the region the output `64 × 64 × 512` (image, cluster, channel) is
  transposed to (image, channel, cluster) and flattened to `64 × 32768`: the entry at the flattened index
  `j = 64·d + k` is the output's entry at cluster `k = j % 64`, channel `d = j / 64`.
-/
import proofs.«115963_j75557064672007_2_alg».proof.Proof.Gen.KernelIdeal.Frame
import proofs.«115963_j75557064672007_2_alg».proof.Proof.VladArrays
import Idealize.ShloMosaic.Lib.ValueLayout
import Idealize.ShloMosaic.Lib.StableHlo.Run
import Idealize.ShloMosaic.Lib.Pipeline.Value
import Idealize.ShloMosaic.Lib.ValueIdx

noncomputable section

open Idealize.ShloMosaic Idealize.ShloMosaic.ValueIdx Idealize.ShloMosaic.TcCoe Idealize.SL.Sem Idealize.ShloMosaic.StableHlo
open Cert.KernelIdeal Cert.KernelIdeal.Gen

namespace Cert.NetVlad.Host

variable (m : (ℓ : Loc Cert.KernelIdeal.nD Cert.KernelIdeal.τ Cert.KernelIdeal.sig) → Buf (Elt Ideal) ℓ)

/-- The centres as the region finds them are the argument transposed. -/
theorem centres_as_found (c : Dev nD) :
    (Gen.V m c main_v0 : S64x512.Idx → EReal)
      = fun i => (m ((c : Thread nD τ).loc main_arg2) : S512x64.Idx → EReal) (ix2 (i 1) (i 0)) := by
  show StableHlo.after hostOps0 (fun b => m (c, b)) (Proc.devRef .tc main_v0) = _
  after_results
  funext i
  obtain ⟨k, d, rfl⟩ : ∃ (k : Fin 64) (d : Fin 512), i = ix2 k d := ⟨i 0, i 1, eq_ix2 i⟩
  exact transpose_ix2_apply _ _ k d

/-- The lines after the region, applied to any final contents `A` of the output array: transposing cluster and channel
    and flattening `(d, k)` to `j = 64·d + k` reads `A` at cluster `j % 64`, channel `j / 64`. -/
theorem tail_eq (c : Dev nD) (A : S64x64x512.Idx → EReal) (hA : (Gen.dats m 0 c).arrAt 3 cfg0.N = A) :
    (Pipeline.afterTail₀ cfgs (Gen.dats m) 0 (Gen.V0 m) [Gen.hostOps1] c main_v3 : S64x32768.Idx → EReal)
      = fun i => A (ix3 (i 0) (Cert.NetVlad.clusterOf (i 1)) (Cert.NetVlad.channelOf (i 1))) := by
  unfold Pipeline.afterTail₀
  show StableHlo.after hostOps1 _ (Proc.devRef .tc main_v3) = _
  after_results
  rw [(Pipeline.withArrays_arr spec0 launch0.win.arr_inj c _ _ 3).trans hA]
  funext i
  obtain ⟨b, j, rfl⟩ : ∃ (b : Fin 64) (j : Fin 32768), i = ix2 b j := ⟨i 0, i 1, eq_ix2 i⟩
  show shapeCast S64x32768 (transpose S64x512x64 [0, 2, 1] A _) _ (ix2 b j)
      = A (ix3 b (Cert.NetVlad.clusterOf j) (Cert.NetVlad.channelOf j))
  rw [shapeCast_apply _ _ (ix2 b j) (ix3 b (Cert.NetVlad.channelOf j) (Cert.NetVlad.clusterOf j)) (by
    rw [Shape.rowMajor_val_three, Shape.rowMajor_val_two]
    have hb := b.isLt; have hj := j.isLt
    show (b.val * 512 + j.val / 64) * 64 + j.val % 64 = b.val * 32768 + j.val
    omega)]
  exact transpose_ix3_021_apply _ _ b (Cert.NetVlad.channelOf j) (Cert.NetVlad.clusterOf j)

end Cert.NetVlad.Host

end
-- ==== Proof.KernelRun.lean ====
/-
  The kernel program's run with its result named: the batch's descriptors.

  The program transposes the centres, launches the region, then transposes the region's output `64 × 64 × 512` to
  `64 × 512 × 64` and flattens it to `64 × 32768`: the result at `(b, j)`, `j = 64·d + k`, is the output at `(b, k, d)`,
  the descriptor of image `b` at cluster `k`, channel `d`. The centres the region finds are the argument transposed,
  so the region's transposed centres at `(k, d)` are the argument's at `(d, k)`. The three arguments end unchanged.
-/
import proofs.«115963_j75557064672007_2_alg».proof.Proof.KernelArray
import proofs.«115963_j75557064672007_2_alg».proof.Proof.KernelHost

noncomputable section

namespace Cert.NetVlad.Run

open Idealize.ShloMosaic Idealize.ShloMosaic.TcCoe Idealize.ShloMosaic.ValueIdx Idealize.SL.Sem
open Cert.KernelIdeal Cert.KernelIdeal.Gen Cert.NetVlad Cert.NetVlad.Body Cert.NetVlad.Region

variable (m : (ℓ : Loc nD τ sig) → Buf (Elt Ideal) ℓ) (ρ : Dev nD → PrngReg)

/-- The program's result, after the lines that follow the region, is the batch's descriptors. -/
theorem result_eq (c : Dev nD) :
    (Pipeline.afterTail₀ cfgs (dats m) 0 (V0 m) [hostOps1] c main_v3 : S64x32768.Idx → EReal)
      = descriptorK (m ((c.tc : Thread nD τ).loc main_arg0)) (m ((c.tc : Thread nD τ).loc main_arg1))
          (m ((c.tc : Thread nD τ).loc main_arg2)) := by
  rw [Cert.NetVlad.Host.tail_eq m c _ (final m c), V_main_arg0, V_main_arg1, Cert.NetVlad.Host.centres_as_found]
  rfl

/-- Every weakly fair execution of the kernel program terminates with the result at the batch's descriptors and the
    arguments unchanged. -/
theorem run : θ_run defs (onTc (τ := τ) (main (F := Ideal))) ⟨m, fun _ => 0, ρ⟩ (fun r => ∀ c : Dev nD,
      r.2.mem ((c.tc : Thread nD τ).loc main_v3)
        = descriptorK (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.NetVlad.Run

end
-- ==== Proof.Reference.lean ====
/-
  The reference program computes the quotient form of the NetVLAD descriptor.

  The reference's host operations are read one group at a time, each at explicit coordinates: image `b`, pixel `n`
  (row `n / 32`, column `n % 32` of the image), cluster `k`, channel `d`, flattened index `j = 64·d + k`.
    score    : the contraction of a pixel's channels with the assignment weights;
    rowMax   : the maximum of a pixel's scores, taken from −∞ and once more against −∞;
    expo     : the exponential of the shifted score; assign: its quotient by the pixel's sum of exponentials;
    vlad     : the contraction over the pixels of assignment and image, plus the total assignment times the centre;
    intraR   : the quotient by the square root of (a cluster row's sum of squares + ε);
    totR     : the sum of squares over the flattened index; outR: the quotient by the square root of (totR + ε).
  The two reshapes that merge the pixel's row and column into `n` (and back) are the identity on the row-major
  position `32·row + column`; the last reshape after the transposition sends `(d, k)` to `j = 64·d + k`.
-/
import proofs.«115963_j75557064672007_2_alg».proof.Proof.Gen.ReferenceIdeal.Read
import proofs.«115963_j75557064672007_2_alg».proof.Proof.VladArrays

noncomputable section

open Idealize.ShloMosaic Idealize.ShloMosaic.ValueIdx
open Cert.ReferenceIdeal Cert.ReferenceIdeal.Gen Cert.ReferenceIdeal.Read
open scoped BigOperators

namespace Cert.NetVlad.Reference

/-- The row and the column of pixel `n` in its 32 × 32 image. -/
abbrev rowOf (n : Fin 1024) : Fin 32 := ⟨n.val / 32, by have := n.isLt; omega⟩
abbrev colOf (n : Fin 1024) : Fin 32 := ⟨n.val % 32, Nat.mod_lt _ (by decide)⟩

variable (x0 : (⟨S64x32x32x512, .f32⟩ : BufTy).Contents (Elt Ideal)) (x1 x2 : (⟨S512x64, .f32⟩ : BufTy).Contents (Elt Ideal))

/-! ## The scores and the softmax over the clusters -/

/-- The first contraction is the score: Σ_d X n d · W d k. -/
theorem v0_eq (b : Fin 64) (n : Fin 1024) (k : Fin 64) :
    val_main_v0 (F := Ideal) x0 x1 (ix4 b (rowOf n) (colOf n) k) = score (image x0 b) (weights x1) n k := by
  rw [val_main_v0_apply]
  unfold score
  refine Finset.sum_congr rfl fun d _ => ?_
  have el : lidx_main_v0 (ix4 b (rowOf n) (colOf n) k) d = ix4 b (rowOf n) (colOf n) d :=
    funext fun a => Fin.ext (by match a with | ⟨0, _⟩ => rfl | ⟨1, _⟩ => rfl | ⟨2, _⟩ => rfl | ⟨3, _⟩ => rfl)
  have er : ridx_main_v0 (ix4 b (rowOf n) (colOf n) k) d = ix2 d k :=
    funext fun a => Fin.ext (by match a with | ⟨0, _⟩ => rfl | ⟨1, _⟩ => rfl)
  rw [el, er]
  rfl

/-- The max-reduce over the cluster axis is the fold of `max` from −∞ over a pixel's scores. -/
theorem v1_eq (b : Fin 64) (n : Fin 1024) :
    val_main_v1 (F := Ideal) x0 x1 (ix3 b (rowOf n) (colOf n))
      = (Finset.univ : Finset (Fin 64)).fold max negInf fun k => score (image x0 b) (weights x1) n k := by
  have hred : S64x32x32x64.Reduces [3] S64x32x32 := by decide
  unfold val_main_v1
  rw [Host.reduce_eq_fold_single (FloatOps.maximumf (F := Ideal) (φ := .f32)) _ _ reducesTo_S64x32x32x64_S64x32x32_d3 hred h_S_]
  refine Finset.fold_congr fun (k : Fin 64) _ => ?_
  have e : hred.lift (ix3 b (rowOf n) (colOf n)) k = ix4 b (rowOf n) (colOf n) k :=
    funext fun a => Fin.ext (by match a with | ⟨0, _⟩ => rfl | ⟨1, _⟩ => rfl | ⟨2, _⟩ => rfl | ⟨3, _⟩ => rfl)
  show val_main_v0 (F := Ideal) x0 x1 (hred.lift (ix3 b (rowOf n) (colOf n)) k) = _
  rw [e, v0_eq]

/-- The maximum against the broadcast −∞ is the pixel's largest score. -/
theorem v3_eq (b : Fin 64) (n : Fin 1024) :
    val_main_v3 (F := Ideal) x0 x1 (ix3 b (rowOf n) (colOf n)) = rowMax (image x0 b) (weights x1) n := by
  rw [val_main_v3_apply, val_main_v2_apply, val_main_cst_0_apply, v1_eq]
  rfl

/-- The exponential of the score shifted by the broadcast row maximum. -/
theorem v7_eq (b : Fin 64) (n : Fin 1024) (k : Fin 64) :
    val_main_v7 (F := Ideal) x0 x1 (ix4 b (rowOf n) (colOf n) k) = expo (image x0 b) (weights x1) n k := by
  have e : idx_main_v4 (idx_main_v5 (ix4 b (rowOf n) (colOf n) k)) = ix3 b (rowOf n) (colOf n) :=
    funext fun a => Fin.ext (by match a with | ⟨0, _⟩ => rfl | ⟨1, _⟩ => rfl | ⟨2, _⟩ => rfl)
  rw [val_main_v7_apply, val_main_v6_apply, val_main_v5_apply, val_main_v4_apply, e, v3_eq, v0_eq]
  rfl

/-- The sum of a pixel's exponentials over the clusters (the initial value is the zero word). -/
theorem v8_eq (b : Fin 64) (n : Fin 1024) :
    val_main_v8 (F := Ideal) x0 x1 (ix3 b (rowOf n) (colOf n)) = ∑ k : Fin 64, expo (image x0 b) (weights x1) n k := by
  rw [val_main_v8_apply, val_main_cst_1_apply, Ideal.ofBits_def, Ideal.ofBits_zero_f32, zero_add]
  refine Finset.sum_congr rfl fun k _ => ?_
  have e : idx_main_v8 (ix3 b (rowOf n) (colOf n)) k = ix4 b (rowOf n) (colOf n) k :=
    funext fun a => Fin.ext (by match a with | ⟨0, _⟩ => rfl | ⟨1, _⟩ => rfl | ⟨2, _⟩ => rfl | ⟨3, _⟩ => rfl)
  rw [e, v7_eq]

/-- The soft assignment: the exponential over the broadcast sum. -/
theorem v11_eq (b : Fin 64) (n : Fin 1024) (k : Fin 64) :
    val_main_v11 (F := Ideal) x0 x1 (ix4 b (rowOf n) (colOf n) k) = assign (image x0 b) (weights x1) n k := by
  have e : idx_main_v9 (idx_main_v10 (ix4 b (rowOf n) (colOf n) k)) = ix3 b (rowOf n) (colOf n) :=
    funext fun a => Fin.ext (by match a with | ⟨0, _⟩ => rfl | ⟨1, _⟩ => rfl | ⟨2, _⟩ => rfl)
  rw [val_main_v11_apply, val_main_v10_apply, val_main_v9_apply, e, v8_eq, v7_eq]
  rfl

/-! ## The aggregated residuals -/

/-- Merging row and column into the pixel index keeps the row-major position: pixel `n` of the reshaped assignment is
    the one at row `n / 32`, column `n % 32`. -/
theorem v12_eq (b : Fin 64) (n : Fin 1024) (k : Fin 64) :
    val_main_v12 (F := Ideal) x0 x1 (ix3 b n k) = assign (image x0 b) (weights x1) n k := by
  have e : idx_main_v12 (ix3 b n k) = ix4 b (rowOf n) (colOf n) k :=
    funext fun a => Fin.ext (by
      have hb := b.isLt; have hn := n.isLt; have hk := k.isLt
      match a with
      | ⟨0, _⟩ => show ((b.val * 1024 + n.val) * 64 + k.val) / 65536 = b.val; omega
      | ⟨1, _⟩ => show ((b.val * 1024 + n.val) * 64 + k.val) / 2048 % 32 = n.val / 32; omega
      | ⟨2, _⟩ => show ((b.val * 1024 + n.val) * 64 + k.val) / 64 % 32 = n.val % 32; omega
      | ⟨3, _⟩ => show ((b.val * 1024 + n.val) * 64 + k.val) % 64 = k.val; omega)
  rw [val_main_v12_apply, e, v11_eq]

/-- The same reshape of the batch itself is the image as pixels × channels. -/
theorem v13_eq (b : Fin 64) (n : Fin 1024) (d : Fin 512) :
    val_main_v13 (F := Ideal) x0 (ix3 b n d) = image x0 b n d := by
  have e : idx_main_v13 (ix3 b n d) = ix4 b (rowOf n) (colOf n) d :=
    funext fun a => Fin.ext (by
      have hb := b.isLt; have hn := n.isLt; have hd := d.isLt
      match a with
      | ⟨0, _⟩ => show ((b.val * 1024 + n.val) * 512 + d.val) / 524288 = b.val; omega
      | ⟨1, _⟩ => show ((b.val * 1024 + n.val) * 512 + d.val) / 16384 % 32 = n.val / 32; omega
      | ⟨2, _⟩ => show ((b.val * 1024 + n.val) * 512 + d.val) / 512 % 32 = n.val % 32; omega
      | ⟨3, _⟩ => show ((b.val * 1024 + n.val) * 512 + d.val) % 512 = d.val; omega)
  rw [val_main_v13_apply, e]
  rfl

/-- The contraction over the pixels: Σ_n assign n k · X n d. -/
theorem v14_eq (b : Fin 64) (k : Fin 64) (d : Fin 512) :
    val_main_v14 (F := Ideal) x0 x1 (ix3 b k d)
      = ∑ n : Fin 1024, assign (image x0 b) (weights x1) n k * image x0 b n d := by
  rw [val_main_v14_apply]
  refine Finset.sum_congr rfl fun n _ => ?_
  have el : lidx_main_v14 (ix3 b k d) n = ix3 b n k :=
    funext fun a => Fin.ext (by match a with | ⟨0, _⟩ => rfl | ⟨1, _⟩ => rfl | ⟨2, _⟩ => rfl)
  have er : ridx_main_v14 (ix3 b k d) n = ix3 b n d :=
    funext fun a => Fin.ext (by match a with | ⟨0, _⟩ => rfl | ⟨1, _⟩ => rfl | ⟨2, _⟩ => rfl)
  rw [el, er, v12_eq, v13_eq]

/-- The total assignment of a cluster: Σ_n assign n k (the initial value is the zero word). -/
theorem v15_eq (b : Fin 64) (k : Fin 64) :
    val_main_v15 (F := Ideal) x0 x1 (ix2 b k) = ∑ n : Fin 1024, assign (image x0 b) (weights x1) n k := by
  rw [val_main_v15_apply, val_main_cst_2_apply, Ideal.ofBits_def, Ideal.ofBits_zero_f32, zero_add]
  refine Finset.sum_congr rfl fun n _ => ?_
  have e : idx_main_v15 (ix2 b k) n = ix3 b n k :=
    funext fun a => Fin.ext (by match a with | ⟨0, _⟩ => rfl | ⟨1, _⟩ => rfl | ⟨2, _⟩ => rfl)
  rw [e, v12_eq]

/-- The transposed centres, broadcast over the batch. -/
theorem v20_eq (b : Fin 64) (k : Fin 64) (d : Fin 512) :
    val_main_v20 (F := Ideal) x2 (ix3 b k d) = centresT x2 k d := by
  have e : idx_main_v17 (idx_main_v18 (idx_main_v20 (ix3 b k d))) = ix2 d k :=
    funext fun a => Fin.ext (by match a with | ⟨0, _⟩ => rfl | ⟨1, _⟩ => rfl)
  rw [val_main_v20_apply, val_main_v18_apply, val_main_v17_apply, e]
  rfl

/-- The aggregated residuals: the contraction plus the total assignment times the centre. -/
theorem v22_eq (b : Fin 64) (k : Fin 64) (d : Fin 512) :
    val_main_v22 (F := Ideal) x0 x1 x2 (ix3 b k d) = vlad (image x0 b) (weights x1) (centresT x2) k d := by
  have e : idx_main_v16 (idx_main_v19 (ix3 b k d)) = ix2 b k :=
    funext fun a => Fin.ext (by match a with | ⟨0, _⟩ => rfl | ⟨1, _⟩ => rfl)
  rw [val_main_v22_apply, val_main_v21_apply, val_main_v19_apply, val_main_v16_apply, e, v14_eq, v15_eq, v20_eq]
  rfl

/-! ## The two normalisations -/

/-- A cluster row's sum of squares (the initial value is the zero word). -/
theorem v24_eq (b : Fin 64) (k : Fin 64) :
    val_main_v24 (F := Ideal) x0 x1 x2 (ix2 b k) = rowSS (image x0 b) (weights x1) (centresT x2) k := by
  rw [val_main_v24_apply, val_main_cst_3_apply, Ideal.ofBits_def, Ideal.ofBits_zero_f32, zero_add]
  unfold rowSS
  refine Finset.sum_congr rfl fun d _ => ?_
  have e : idx_main_v24 (ix2 b k) d = ix3 b k d :=
    funext fun a => Fin.ext (by match a with | ⟨0, _⟩ => rfl | ⟨1, _⟩ => rfl | ⟨2, _⟩ => rfl)
  rw [val_main_v23_apply, e, v22_eq]
  rfl

/-- The row-normalised descriptor: the quotient by the broadcast square root of (sum of squares + ε). -/
theorem v30_eq (b : Fin 64) (k : Fin 64) (d : Fin 512) :
    val_main_v30 (F := Ideal) x0 x1 x2 (ix3 b k d) = intraR (image x0 b) (weights x1) (centresT x2) k d := by
  have e : idx_main_v25 (idx_main_v29 (ix3 b k d)) = ix2 b k :=
    funext fun a => Fin.ext (by match a with | ⟨0, _⟩ => rfl | ⟨1, _⟩ => rfl)
  rw [val_main_v30_apply, val_main_v29_apply, val_main_v28_apply, val_main_v27_apply, val_main_v26_apply,
    val_main_cst_4_apply, val_main_v25_apply, e, v24_eq, v22_eq]
  rfl

/-- Transposing to channel × cluster and flattening sends `(d, k)` to `j = 64·d + k`: the entry at `j` is the one at
    cluster `j % 64`, channel `j / 64`. -/
theorem v32_eq (b : Fin 64) (j : Fin 32768) :
    val_main_v32 (F := Ideal) x0 x1 x2 (ix2 b j)
      = intraR (image x0 b) (weights x1) (centresT x2) (clusterOf j) (channelOf j) := by
  have e : idx_main_v31 (idx_main_v32 (ix2 b j)) = ix3 b (clusterOf j) (channelOf j) :=
    funext fun a => Fin.ext (by
      have hb := b.isLt; have hj := j.isLt
      match a with
      | ⟨0, _⟩ => show (b.val * 32768 + j.val) / 32768 = b.val; omega
      | ⟨1, _⟩ => show (b.val * 32768 + j.val) % 64 = j.val % 64; omega
      | ⟨2, _⟩ => show (b.val * 32768 + j.val) / 64 % 512 = j.val / 64; omega)
  rw [val_main_v32_apply, val_main_v31_apply, e, v30_eq]

/-- The total sum of squares over the flattened index (the initial value is the zero word). -/
theorem v34_eq (b : Fin 64) :
    val_main_v34 (F := Ideal) x0 x1 x2 (ix1 b) = totR (image x0 b) (weights x1) (centresT x2) := by
  rw [val_main_v34_apply, val_main_cst_5_apply, Ideal.ofBits_def, Ideal.ofBits_zero_f32, zero_add]
  unfold totR
  refine Finset.sum_congr rfl fun j _ => ?_
  have e : idx_main_v34 (ix1 b) j = ix2 b j :=
    funext fun a => Fin.ext (by match a with | ⟨0, _⟩ => rfl | ⟨1, _⟩ => rfl)
  rw [val_main_v33_apply, e, v32_eq]
  rfl

/-- The descriptor normalised as a whole: the quotient by the broadcast square root of (total + ε). -/
theorem v40_eq (b : Fin 64) (j : Fin 32768) :
    val_main_v40 (F := Ideal) x0 x1 x2 (ix2 b j)
      = outR (image x0 b) (weights x1) (centresT x2) (clusterOf j) (channelOf j) := by
  have e : idx_main_v35 (idx_main_v39 (ix2 b j)) = ix1 b :=
    funext fun a => Fin.ext (by match a with | ⟨0, _⟩ => rfl)
  rw [val_main_v40_apply, val_main_v39_apply, val_main_v38_apply, val_main_v37_apply, val_main_v36_apply,
    val_main_cst_6_apply, val_main_v35_apply, e, v34_eq, v32_eq]
  unfold outR
  simp only [Ideal.hostDivf_def, Ideal.hostUnary_sqrt_def, Ideal.addf_def, Ideal.ofBits_def]

/-- THE REFERENCE'S RESULT IS THE QUOTIENT FORM OF THE DESCRIPTOR, index by index. -/
theorem reference_eq (x0 : (⟨Cert.ReferenceIdeal.S64x32x32x512, .f32⟩ : BufTy).Contents (Elt Ideal))
    (x1 x2 : (⟨Cert.ReferenceIdeal.S512x64, .f32⟩ : BufTy).Contents (Elt Ideal)) :
    Cert.ReferenceIdeal.Read.val_main_v40 (F := Ideal) x0 x1 x2 = Cert.NetVlad.descriptorR x0 x1 x2 := by
  funext i
  obtain ⟨b, j, rfl⟩ : ∃ (b : Fin 64) (j : Fin 32768), i = ix2 b j := ⟨i 0, i 1, eq_ix2 i⟩
  rw [v40_eq]
  rfl

end Cert.NetVlad.Reference

end
-- ==== Proof.lean ====
/-
  The certificate of the NetVLAD kernel against its reference, on the extended reals.

  Both programs compute, for each of the 64 images, the NetVLAD descriptor: soft assignments of the 1024 pixels to
  64 clusters (a softmax of pixel · weights), the assignment-weighted sum of the pixels plus the total assignment
  times the cluster centre, an L2 normalisation of every cluster row, and an L2 normalisation of the whole
  descriptor, laid out channel-major. The kernel works on blocks of four images, multiplies by reciprocal square
  roots and sums the final squares cluster by cluster; the reference divides by square roots and sums the squares
  over the flattened descriptor. The two agree because a sum of squares plus the positive ε is positive, where
  `x · rsqrt y = x / sqrt y` (Proof/Vlad.lean), and because sums of extended reals may be regrouped. The frames of the
  two kernel programs and the kernel's launch are the generated ones; the reference's frame is its generated run
  with the result dropped; the idealisation rewrote nothing.
-/
import proofs.«115963_j75557064672007_2_alg».proof.Defs
import proofs.«115963_j75557064672007_2_alg».proof.Proof.Gen.Kernel
import proofs.«115963_j75557064672007_2_alg».proof.Proof.Gen.Kernel.Skeleton
import proofs.«115963_j75557064672007_2_alg».proof.Proof.Gen.Kernel.Launch
import proofs.«115963_j75557064672007_2_alg».proof.Proof.Gen.Kernel.Points
import proofs.«115963_j75557064672007_2_alg».proof.Proof.Gen.Kernel.Frame
import proofs.«115963_j75557064672007_2_alg».proof.Proof.Gen.KernelIdeal
import proofs.«115963_j75557064672007_2_alg».proof.Proof.Gen.KernelIdeal.Skeleton
import proofs.«115963_j75557064672007_2_alg».proof.Proof.Gen.KernelIdeal.Launch
import proofs.«115963_j75557064672007_2_alg».proof.Proof.Gen.KernelIdeal.Points
import proofs.«115963_j75557064672007_2_alg».proof.Proof.Gen.KernelIdeal.Frame
import proofs.«115963_j75557064672007_2_alg».proof.Proof.Gen.ReferenceIdeal
import proofs.«115963_j75557064672007_2_alg».proof.Proof.Gen.Pre_finite_inputs
import proofs.«115963_j75557064672007_2_alg».proof.Proof.Gen.ReferenceIdeal.Run
import proofs.«115963_j75557064672007_2_alg».proof.Proof.Gen.ReferenceIdeal.Read
import proofs.«115963_j75557064672007_2_alg».proof.Proof.KernelRun
import proofs.«115963_j75557064672007_2_alg».proof.Proof.Reference
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- And the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories agreeing on the arguments the two idealized programs end with the same result: the kernel program at
    the batch's descriptors in the reciprocal-square-root form, the reference at the quotient form, one function. -/
theorem algebraic : Cert.algebraic_KernelIdeal_ReferenceIdeal := by
  intro m ρ m' ρ' _ hagree
  refine ⟨_, Cert.NetVlad.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.NetVlad.Reference.reference_eq, (hagree c).1, (hagree c).2.1, (hagree c).2.2,
    ← Cert.NetVlad.descriptorK_eq_descriptorR]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
